-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x16x32x32 : Shape := ⟨5, ![8, 128, 16, 32, 32]⟩
abbrev S16x128 : Shape := ⟨2, ![16, 128]⟩
abbrev S128x16 : Shape := ⟨2, ![128, 16]⟩
abbrev S_ : Shape := ⟨0, ![]⟩

class Facts : Prop where
  bcast_S_S8x128x16x32x32 : S_.BroadcastsInDim S8x128x16x32x32 (![] : Fin 0 → Fin S8x128x16x32x32.rank)
  reducesTo_S8x128x16x32x32_S_d0_1_2_3_4 : S8x128x16x32x32.ReducesTo [0, 1, 2, 3, 4] S_
  h_S_ : 0 < S_.numel
  bcast_S_S16x128 : S_.BroadcastsInDim S16x128 (![] : Fin 0 → Fin S16x128.rank)
  reducesTo_S16x128_S_d0_1 : S16x128.ReducesTo [0, 1] S_
  bcast_S_S128x16 : S_.BroadcastsInDim S128x16 (![] : Fin 0 → Fin S128x16.rank)
  reducesTo_S128x16_S_d0_1 : S128x16.ReducesTo [0, 1] S_

variable [Facts]

def fn {F : FTy → Type} [FloatOps F] (main_arg0 : FVec F S8x128x16x32x32 .f32) (main_arg1 : FVec F S16x128 .f32) (main_arg2 : FVec F S128x16 .f32) : IVec S_ 1 :=
  let main_v0 : FVec F S8x128x16x32x32 .f32 := Host.absf main_arg0
  let main_cst : FVec F S_ .f32 := constant S_ .f32 0x7F800000#32
  let main_v1 : FVec F S8x128x16x32x32 .f32 := broadcastInDim S8x128x16x32x32 ![] bcast_S_S8x128x16x32x32 main_cst
  let main_v2 : IVec S8x128x16x32x32 1 := cmpf .olt main_v0 main_v1
  let main_c : IVec S_ 1 := constantI S_ 1 1#1
  let main_v3 : IVec S_ 1 := (fun x v => Host.reduce IntOp.andi x v reducesTo_S8x128x16x32x32_S_d0_1_2_3_4 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  main_v13
-- ==== Kernel.lean ====
abbrev S8x128x16x32x32 : Shape := ⟨5, ![8, 128, 16, 32, 32]⟩
abbrev S16x128 : Shape := ⟨2, ![16, 128]⟩
abbrev S128x16 : Shape := ⟨2, ![128, 16]⟩
abbrev S8x128x16384 : Shape := ⟨3, ![8, 128, 16384]⟩
abbrev S1x128x16384 : Shape := ⟨3, ![1, 128, 16384]⟩
abbrev S128x16384 : Shape := ⟨2, ![128, 16384]⟩
abbrev S128 : Shape := ⟨1, ![128]⟩
abbrev S128x1 : Shape := ⟨2, ![128, 1]⟩
abbrev S1x16 : Shape := ⟨2, ![1, 16]⟩

abbrev nBuf : Space → Nat
  | .hbm => 7
  | .vmem => 6
  | .smem => 0
  | _ => 0

abbrev bufTy : (tb : Table) → Fin (tcTables nBuf tb) → BufTy
  | .hbm, ⟨0, _⟩ => ⟨S8x128x16x32x32, .f32⟩
  | .hbm, ⟨1, _⟩ => ⟨S16x128, .f32⟩
  | .hbm, ⟨2, _⟩ => ⟨S128x16, .f32⟩
  | .hbm, ⟨3, _⟩ => ⟨S8x128x16384, .f32⟩
  | .hbm, ⟨4, _⟩ => ⟨S128x16, .f32⟩
  | .hbm, ⟨5, _⟩ => ⟨S8x128x16384, .f32⟩
  | .hbm, ⟨6, _⟩ => ⟨S8x128x16x32x32, .f32⟩
  | .local _ .vmem, ⟨0, _⟩ => ⟨S1x128x16384, .f32⟩
  | .local _ .vmem, ⟨1, _⟩ => ⟨S1x128x16384, .f32⟩
  | .local _ .vmem, ⟨2, _⟩ => ⟨S128x16, .f32⟩
  | .local _ .vmem, ⟨3, _⟩ => ⟨S128x16, .f32⟩
  | .local _ .vmem, ⟨4, _⟩ => ⟨S1x128x16384, .f32⟩
  | .local _ .vmem, ⟨5, _⟩ => ⟨S1x128x16384, .f32⟩
  | _, _ => ⟨S8x128x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x128x16x32x32_S8x128x16384 : S8x128x16x32x32.ShapeCasts S8x128x16384
  transposes_S16x128_S128x16_1_0 : S16x128.Transposes [1, 0] S128x16
  inb_S1x128x16384_S1x128x16384_0_0_0 : ∀ a, (![0, 0, 0] : Fin 3 → Nat) a + S1x128x16384.size a ≤ S1x128x16384.size a
  h_S1x128x16384 : 0 < S1x128x16384.numel
  shapeCasts_S1x128x16384_S128x16384 : S1x128x16384.ShapeCasts S128x16384
  reduces_S128x16384_S128 : S128x16384.Reduces [1] S128
  shapeCasts_S128_S128x1 : S128.ShapeCasts S128x1
  inb_S128x16_S128x16_0_0 : ∀ a, (![0, 0] : Fin 2 → Nat) a + S128x16.size a ≤ S128x16.size a
  h_S128x16 : 0 < S128x16.numel
  shapeCasts_S128x16_S128x16 : S128x16.ShapeCasts S128x16
  broadcasts_S1x16_S128x16 : S1x16.Broadcasts S128x16
  reduces_S128x16_S128 : S128x16.Reduces [1] S128
  broadcasts_S128x1_S128x16384 : S128x1.Broadcasts S128x16384
  shapeCasts_S128x16384_S1x128x16384 : S128x16384.ShapeCasts S1x128x16384
  shapeCasts_S8x128x16384_S8x128x16x32x32 : S8x128x16384.ShapeCasts S8x128x16x32x32
  dot_S128x1_S128x16_S1x16_0_0_1_1_n_n_wf : DotDims.WF S128x1 S128x16 S1x16 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16384.size a ≤ S8x128x16384.size a
  hwx0_0 : ∀ i : grid0.Coords, EltTy.bits .f32 = 32 ∨ (Rect.block (s := S8x128x16384) S1x128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x16384.size a ≤ S8x128x16384.size a
  hwx0_3 : ∀ i : grid0.Coords, EltTy.bits .f32 = 32 ∨ (Rect.block (s := S8x128x16384) S1x128x16384.size (cc0_transform_3 i) (hinb0_3 i)).WholeWords (EltTy.packing .f32)

variable [Facts₀]

def dot_S128x1_S128x16_S1x16_0_0_1_1_n_n : DotDims S128x1 S128x16 S1x16 where
  lhsContracting := [0]
  rhsContracting := [0]
  lhsNonContracting := [1]
  rhsNonContracting := [1]
  lhsBatch := []
  rhsBatch := []
  wf := dot_S128x1_S128x16_S1x16_0_0_1_1_n_n_wf

abbrev win0_0 : Pipeline.Window sig grid0 :=
  Pipeline.Window.ofSpec (Memref.whole main_v0) S1x128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x128x16x32x32 : Shape := ⟨5, ![8, 128, 16, 32, 32]⟩
abbrev S16x128 : Shape := ⟨2, ![16, 128]⟩
abbrev S128x16 : Shape := ⟨2, ![128, 16]⟩
abbrev S8x128x16384 : Shape := ⟨3, ![8, 128, 16384]⟩
abbrev S8x128x1 : Shape := ⟨3, ![8, 128, 1]⟩
abbrev S1x128x6144 : Shape := ⟨3, ![1, 128, 6144]⟩
abbrev S1x128x1 : Shape := ⟨3, ![1, 128, 1]⟩
abbrev S128x6144 : Shape := ⟨2, ![128, 6144]⟩
abbrev S128x1 : Shape := ⟨2, ![128, 1]⟩
abbrev S128 : Shape := ⟨1, ![128]⟩
abbrev S8x128 : Shape := ⟨2, ![8, 128]⟩
abbrev S_ : Shape := ⟨0, ![]⟩
abbrev S8x16 : Shape := ⟨2, ![8, 16]⟩

abbrev nBuf : Space → Nat
  | .hbm => 27
  | .vmem => 10
  | .smem => 0
  | _ => 0

abbrev bufTy : (tb : Table) → Fin (tcTables nBuf tb) → BufTy
  | .hbm, ⟨0, _⟩ => ⟨S8x128x16x32x32, .f32⟩
  | .hbm, ⟨1, _⟩ => ⟨S16x128, .f32⟩
  | .hbm, ⟨2, _⟩ => ⟨S128x16, .f32⟩
  | .hbm, ⟨3, _⟩ => ⟨S8x128x16384, .f32⟩
  | .hbm, ⟨4, _⟩ => ⟨S8x128x1, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S128x16, .f32⟩
  | .hbm, ⟨10, _⟩ => ⟨S8x16, .f32⟩
  | .hbm, ⟨11, _⟩ => ⟨S_, .f32⟩
  | .hbm, ⟨12, _⟩ => ⟨S8x16, .f32⟩
  | .hbm, ⟨13, _⟩ => ⟨S8x16, .f32⟩
  | .hbm, ⟨14, _⟩ => ⟨S16x128, .f32⟩
  | .hbm, ⟨15, _⟩ => ⟨S8x128, .f32⟩
  | .hbm, ⟨16, _⟩ => ⟨S8x128, .f32⟩
  | .hbm, ⟨17, _⟩ => ⟨S8x128, .f32⟩
  | .hbm, ⟨18, _⟩ => ⟨S_, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S8x128x1, .f32⟩
  | .hbm, ⟨25, _⟩ => ⟨S8x128x16384, .f32⟩
  | .hbm, ⟨26, _⟩ => ⟨S8x128x16x32x32, .f32⟩
  | .local _ .vmem, ⟨0, _⟩ => ⟨S1x128x6144, .f32⟩
  | .local _ .vmem, ⟨1, _⟩ => ⟨S1x128x6144, .f32⟩
  | .local _ .vmem, ⟨2, _⟩ => ⟨S1x128x1, .f32⟩
  | .local _ .vmem, ⟨3, _⟩ => ⟨S1x128x1, .f32⟩
  | .local _ .vmem, ⟨4, _⟩ => ⟨S1x128x6144, .f32⟩
  | .local _ .vmem, ⟨5, _⟩ => ⟨S1x128x6144, .f32⟩
  | .local _ .vmem, ⟨6, _⟩ => ⟨S1x128x1, .f32⟩
  | .local _ .vmem, ⟨7, _⟩ => ⟨S1x128x1, .f32⟩
  | .local _ .vmem, ⟨8, _⟩ => ⟨S1x128x6144, .f32⟩
  | .local _ .vmem, ⟨9, _⟩ => ⟨S1x128x6144, .f32⟩
  | _, _ => ⟨S8x128x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c2_i32 : BitVec 32 := 2#32
  let v5 : BitVec 1 := Scalar.cmpi .slt arg1 c2_i32
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c2_i32_4 : BitVec 32 := 2#32
  let v8 : BitVec 1 := Scalar.cmpi .eq arg1 c2_i32_4
  let v9 : BitVec 32 := Scalar.extui v8
  let c0_i32_5 : BitVec 32 := 0#32
  let v10 : BitVec 1 := Scalar.cmpi .ne v9 c0_i32_5
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 3], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x128x6144 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x128x6144 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S8x128x16x32x32_S8x128x16384 : S8x128x16x32x32.ShapeCasts S8x128x16384
  inb_S1x128x1_S1x128x1_0_0_0 : ∀ a, (![0, 0, 0] : Fin 3 → Nat) a + S1x128x1.size a ≤ S1x128x1.size a
  h_S1x128x1 : 0 < S1x128x1.numel
  inb_S1x128x6144_S1x128x6144_0_0_0 : ∀ a, (![0, 0, 0] : Fin 3 → Nat) a + S1x128x6144.size a ≤ S1x128x6144.size a
  h_S1x128x6144 : 0 < S1x128x6144.numel
  shapeCasts_S1x128x6144_S128x6144 : S1x128x6144.ShapeCasts S128x6144
  shapeCasts_S1x128x1_S128x1 : S1x128x1.ShapeCasts S128x1
  reduces_S128x6144_S128 : S128x6144.Reduces [1] S128
  shapeCasts_S128_S128x1 : S128.ShapeCasts S128x1
  shapeCasts_S128x1_S1x128x1 : S128x1.ShapeCasts S1x128x1
  iota_S128x6144_d1_w32 : S128x6144.Iotas .tc 32 [1]
  shapeCasts_S8x128x1_S8x128 : S8x128x1.ShapeCasts S8x128
  bcast_S_S8x128 : S_.BroadcastsInDim S8x128 (![] : Fin 0 → Fin S8x128.rank)
  transposes_S16x128_S128x16_1_0 : S16x128.Transposes [1, 0] S128x16
  bcast_S_S8x16 : S_.BroadcastsInDim S8x16 (![] : Fin 0 → Fin S8x16.rank)
  transposes_S128x16_S16x128_1_0 : S128x16.Transposes [1, 0] S16x128
  shapeCasts_S8x128_S8x128x1 : S8x128.ShapeCasts S8x128x1
  broadcasts_S128x1_S128x6144 : S128x1.Broadcasts S128x6144
  shapeCasts_S128x6144_S1x128x6144 : S128x6144.ShapeCasts S1x128x6144
  shapeCasts_S8x128x16384_S8x128x16x32x32 : S8x128x16384.ShapeCasts S8x128x16x32x32
  dot_S8x128_S128x16_S8x16_1_0_0_1_n_n_wf : DotDims.WF S8x128 S128x16 S8x16 [1] [0] [0] [1] [] []
  dot_S8x16_S16x128_S8x128_1_0_0_1_n_n_wf : DotDims.WF S8x16 S16x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x128x6144.size a < S8x128x16384.size a
  hwx0_0 : ∀ i : grid0.Coords, EltTy.bits .f32 = 32 ∨ (Rect.unit (s := S8x128x16384) (fun a => cc0_transform_0 i a * S1x128x6144.size a) (fun a => (Pipeline.Clip.of (cc0_transform_0 i a) (S1x128x6144.size a) (S8x128x16384.size a)).extent (S1x128x6144.size a)) fun a => Pipeline.Clip.inb (Pipeline.Clip.ok_of (hstart0_0 i a))).WholeWords (EltTy.packing .f32)
  hwxs0_0 : ∀ i : grid0.Coords, EltTy.bits .f32 = 32 ∨ (Rect.unit (s := S1x128x6144) (fun _ => 0) (fun a => (Pipeline.Clip.of (cc0_transform_0 i a) (S1x128x6144.size a) (S8x128x16384.size a)).extent (S1x128x6144.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1.size a ≤ S8x128x1.size a
  hwx0_1 : ∀ i : grid0.Coords, EltTy.bits .f32 = 32 ∨ (Rect.block (s := S8x128x1) S1x128x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1x128x6144.size a < S8x128x16384.size a
  hwx1_0 : ∀ i : grid1.Coords, EltTy.bits .f32 = 32 ∨ (Rect.unit (s := S8x128x16384) (fun a => cc1_transform_0 i a * S1x128x6144.size a) (fun a => (Pipeline.Clip.of (cc1_transform_0 i a) (S1x128x6144.size a) (S8x128x16384.size a)).extent (S1x128x6144.size a)) fun a => Pipeline.Clip.inb (Pipeline.Clip.ok_of (hstart1_0 i a))).WholeWords (EltTy.packing .f32)
  hwxs1_0 : ∀ i : grid1.Coords, EltTy.bits .f32 = 32 ∨ (Rect.unit (s := S1x128x6144) (fun _ => 0) (fun a => (Pipeline.Clip.of (cc1_transform_0 i a) (S1x128x6144.size a) (S8x128x16384.size a)).extent (S1x128x6144.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x1.size a ≤ S8x128x1.size a
  hwx1_1 : ∀ i : grid1.Coords, EltTy.bits .f32 = 32 ∨ (Rect.block (s := S8x128x1) S1x128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x128x6144.size a < S8x128x16384.size a
  hwx1_2 : ∀ i : grid1.Coords, EltTy.bits .f32 = 32 ∨ (Rect.unit (s := S8x128x16384) (fun a => cc1_transform_2 i a * S1x128x6144.size a) (fun a => (Pipeline.Clip.of (cc1_transform_2 i a) (S1x128x6144.size a) (S8x128x16384.size a)).extent (S1x128x6144.size a)) fun a => Pipeline.Clip.inb (Pipeline.Clip.ok_of (hstart1_2 i a))).WholeWords (EltTy.packing .f32)
  hwxs1_2 : ∀ i : grid1.Coords, EltTy.bits .f32 = 32 ∨ (Rect.unit (s := S1x128x6144) (fun _ => 0) (fun a => (Pipeline.Clip.of (cc1_transform_2 i a) (S1x128x6144.size a) (S8x128x16384.size a)).extent (S1x128x6144.size a)) fun a => (Nat.zero_add _).trans_le (Pipeline.Clip.extent_le (Pipeline.Clip.ok_of (hstart1_2 i a)))).WholeWords (EltTy.packing .f32)

variable [Facts₀]

def dot_S8x128_S128x16_S8x16_1_0_0_1_n_n : DotDims S8x128 S128x16 S8x16 where
  lhsContracting := [1]
  rhsContracting := [0]
  lhsNonContracting := [0]
  rhsNonContracting := [1]
  lhsBatch := []
  rhsBatch := []
  wf := dot_S8x128_S128x16_S8x16_1_0_0_1_n_n_wf
def dot_S8x16_S16x128_S8x128_1_0_0_1_n_n : DotDims S8x16 S16x128 S8x128 where
  lhsContracting := [1]
  rhsContracting := [0]
  lhsNonContracting := [0]
  rhsNonContracting := [1]
  lhsBatch := []
  rhsBatch := []
  wf := dot_S8x16_S16x128_S8x128_1_0_0_1_n_n_wf

abbrev win0_0 : Pipeline.Window sig grid0 :=
  Pipeline.Window.ofSpecClip (Memref.whole main_v0) S1x128x6144.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S1x128x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) && !(k0_cond3 i == 1#1) | ⟨_ + 2, h⟩ => absurd h (Nat.not_lt.2 (Nat.le_add_left _ _))

abbrev win1_0 : Pipeline.Window sig grid1 :=
  Pipeline.Window.ofSpecClip (Memref.whole main_v0) S1x128x6144.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v17) S1x128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpecClip (Memref.whole main_v18) S1x128x6144.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.KernelBlocks.lean ====
/-
  What the one launch finds and reads. The grid has 8 points; point t handles batch element t.
  • The arrays as the launch finds them: the slabs [8, 128, 16384] are the argument [8, 128, 16, 32, 32] with its last
    three axes flattened in row-major order; the [128, 16] first-layer weights are the argument [16, 128] transposed; the
    second-layer weights are the argument itself.
  • The index maps, decided over the grid: the slab window and the result window sit at block (t, 0, 0), the two weight
    windows at block (0, 0).
  • So the slab block at point t, at (0, c, s), is the slab array at (t, c, s) — a block's element sits at block index
    times block size plus its coordinate inside the block —, and each weight block is its whole array.
-/
import proofs.«130839_g2000702401841808_pallasbulk_415_13_alg».proof.Proof.Gen.KernelIdeal.Frame
import Idealize.ShloMosaic.Lib.Pipeline.Value
import Idealize.ShloMosaic.Lib.ValueIdx
import Idealize.ShloMosaic.Lib.Tactic

noncomputable section

namespace Cert.KernelIdeal.SEValue

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The printed index maps over the grid: the slab and result windows at block (t, 0, 0), the weight windows at (0, 0). -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem hz3 : (![0, 0, 0] : Fin 3 → Nat) = fun _ => 0 := funext fun a => by fin_cases a <;> rfl
theorem hz2 : (![0, 0] : Fin 2 → Nat) = fun _ => 0 := funext fun a => by fin_cases a <;> rfl

/-- The slabs as the launch finds them: the first argument with its positions flattened. -/
theorem V_main_v0 (c : Dev nD) : (V m c main_v0 : S8x128x16384.Idx → EReal)
    = shapeCast S8x128x16384 (m ((c : Thread nD τ).loc main_arg0)) Facts₀.shapeCasts_S8x128x16x32x32_S8x128x16384 := by
  show StableHlo.after hostOps0 (fun b => m (c, b)) (Proc.devRef .tc main_v0) = _
  after_results
  rfl

/-- The first-layer weights as the launch finds them: the second argument transposed. -/
theorem V_main_v1 (c : Dev nD) : (V m c main_v1 : S128x16.Idx → EReal)
    = transpose S128x16 [1, 0] (m ((c : Thread nD τ).loc main_arg1)) Facts₀.transposes_S16x128_S128x16_1_0 := by
  show StableHlo.after hostOps0 (fun b => m (c, b)) (Proc.devRef .tc main_v1) = _
  after_results

/-- The slab block at point t, at (0, c, s): the slab array at (n, c, s), n the point's number. -/
theorem iblk0_apply (c : Dev nD) (t : Fin cfg0.N) (n : Fin 8) (hn : n.val = t.val) (ch : Fin 128) (s : Fin 16384) :
    (iblk m c 0 t : Vec Ideal S1x128x16384 .f32) (ix3 (0 : Fin 1) ch s)
      = (V m c main_v0 : S8x128x16384.Idx → EReal) (ix3 n ch s) := by
  obtain ⟨e0, e1, e2, -⟩ := idx_facts t
  unfold iblk
  rw [View.read_apply]
  show V m c main_v0 _ = V m c main_v0 _
  refine congrArg (V m c main_v0) ?_
  funext a
  apply Fin.ext
  match a with
  | ⟨0, _⟩ => show win0_0.index t (0 : Fin 3) * 1 + 1 * 0 = n.val; rw [e0, hn]; omega
  | ⟨1, _⟩ => show win0_0.index t (1 : Fin 3) * 128 + 1 * ch.val = ch.val; rw [e1]; omega
  | ⟨2, _⟩ => show win0_0.index t (2 : Fin 3) * 16384 + 1 * s.val = s.val; rw [e2]; omega

/-- The first weight block at any point is the whole transposed array. -/
theorem iblk1_apply (c : Dev nD) (t : Fin cfg0.N) (ch : Fin 128) (j : Fin 16) :
    (iblk m c 1 t : Vec Ideal S128x16 .f32) (ix2 ch j) = (V m c main_v1 : S128x16.Idx → EReal) (ix2 ch j) := by
  obtain ⟨-, -, -, e3, e4, -⟩ := idx_facts t
  unfold iblk
  rw [View.read_apply]
  show V m c main_v1 _ = V m c main_v1 _
  refine congrArg (V m c main_v1) ?_
  funext a
  apply Fin.ext
  match a with
  | ⟨0, _⟩ => show win0_1.index t (0 : Fin 2) * 128 + 1 * ch.val = ch.val; rw [e3]; omega
  | ⟨1, _⟩ => show win0_1.index t (1 : Fin 2) * 16 + 1 * j.val = j.val; rw [e4]; omega

/-- The second weight block at any point is the whole array of second-layer weights. -/
theorem iblk2_apply (c : Dev nD) (t : Fin cfg0.N) (ch : Fin 128) (j : Fin 16) :
    (iblk m c 2 t : Vec Ideal S128x16 .f32) (ix2 ch j) = (V m c main_arg2 : S128x16.Idx → EReal) (ix2 ch j) := by
  obtain ⟨-, -, -, -, -, e5, e6, -⟩ := idx_facts t
  unfold iblk
  rw [View.read_apply]
  show V m c main_arg2 _ = V m c main_arg2 _
  refine congrArg (V m c main_arg2) ?_
  funext a
  apply Fin.ext
  match a with
  | ⟨0, _⟩ => show win0_2.index t (0 : Fin 2) * 128 + 1 * ch.val = ch.val; rw [e5]; omega
  | ⟨1, _⟩ => show win0_2.index t (1 : Fin 2) * 16 + 1 * j.val = j.val; rw [e6]; omega

end Cert.KernelIdeal.SEValue

end
-- ==== Proof.Spec.lean ====
/-
  Squeeze-and-excitation over a batch of channel-by-position slabs, as ONE function of the argument arrays on the
  extended reals. For a batch element `n` and a channel `c`:
    rowSum n c   = the sum over the 16384 positions `s` of x (n, c, s)
    hiddenOf n j = max (the sum over the 128 channels `c` of (rowSum n c · 2⁻¹⁴) · w1 (j, c)) 0    -- means, first layer, relu
    gateOf n c   = logistic (the sum over the 16 hidden units `j` of w2 (c, j) · hiddenOf n j)
    scaled (n, c, s) = x (n, c, s) · gateOf n c.
  The hidden layer and the gate are stated over ANY family of channel sums, so that a program which computes the sums
  in one place and the gate in another is read piece by piece. The scale 2⁻¹⁴ is kept as the f32 word both programs
  print (0x38800000), never evaluated: it is the same word on both sides. Sums are `Finset` sums in the additive
  commutative monoid of the extended reals, so regrouping and reordering them needs no finiteness.
  The argument `x` arrives as a rank-5 array [8, 128, 16, 32, 32] whose last three axes are the positions in row-major
  order, and the result leaves in the same layout: `result` wraps `scaled` between the two changes of layout.
-/
import Idealize.ShloMosaic.PureOps.Ideal
import Idealize.ShloMosaic.Lib.ValueIdx

noncomputable section

open scoped BigOperators

namespace Cert.SE

open Idealize.ShloMosaic Idealize.ShloMosaic.ValueIdx

/-- The slabs: 8 batch elements, 128 channels, 16384 positions. -/
abbrev SX : Shape := ⟨3, ![8, 128, 16384]⟩
/-- The same array with the positions as depth, height and width. -/
abbrev SX5 : Shape := ⟨5, ![8, 128, 16, 32, 32]⟩
/-- The first layer's weights: 16 hidden units by 128 channels. -/
abbrev SW1 : Shape := ⟨2, ![16, 128]⟩
/-- The second layer's weights: 128 channels by 16 hidden units. -/
abbrev SW2 : Shape := ⟨2, ![128, 16]⟩

/-- The reciprocal of the number of positions, 2⁻¹⁴, as the f32 word both programs carry. -/
def invS : EReal := Ideal.ofBits .f32 0x38800000#32

/-- The sum of a channel's 16384 positions. -/
def rowSum (x : SX.Idx → EReal) (n : Fin 8) (c : Fin 128) : EReal := ∑ s : Fin 16384, x (ix3 n c s)

/-- The hidden layer from the channels' sums: the means against the first weights, clamped below at zero. -/
def hiddenOf (sums : Fin 8 → Fin 128 → EReal) (w1 : SW1.Idx → EReal) (n : Fin 8) (j : Fin 16) : EReal :=
  max (∑ c : Fin 128, (sums n c * invS) * w1 (ix2 j c)) 0

/-- The gate of channel `c` from the channels' sums: the logistic function of the hidden layer against the second weights. -/
def gateOf (sums : Fin 8 → Fin 128 → EReal) (w1 : SW1.Idx → EReal) (w2 : SW2.Idx → EReal) (n : Fin 8) (c : Fin 128) : EReal :=
  Ideal.logistic (∑ j : Fin 16, w2 (ix2 c j) * hiddenOf sums w1 n j)

/-- Every position of a channel multiplied by the channel's gate. -/
def scaled (x : SX.Idx → EReal) (w1 : SW1.Idx → EReal) (w2 : SW2.Idx → EReal) : SX.Idx → EReal :=
  fun i => x i * gateOf (rowSum x) w1 w2 (i 0) (i 1)

theorem scaled_ix3 (x : SX.Idx → EReal) (w1 : SW1.Idx → EReal) (w2 : SW2.Idx → EReal) (n : Fin 8) (c : Fin 128) (s : Fin 16384) :
    scaled x w1 w2 (ix3 n c s) = x (ix3 n c s) * gateOf (rowSum x) w1 w2 n c := rfl

/-- The whole function in the arguments' own layout: positions flattened, every channel scaled, positions unflattened. -/
def result (h53 : SX5.ShapeCasts SX) (h35 : SX.ShapeCasts SX5) (x5 : SX5.Idx → EReal) (w1 : SW1.Idx → EReal) (w2 : SW2.Idx → EReal) :
    SX5.Idx → EReal :=
  shapeCast SX5 (scaled (shapeCast SX x5 h53) w1 w2) h35

end Cert.SE

end
-- ==== Proof.KernelLayout.lean ====
/-
  Three readings at an index given by coordinates, each over any extents, used by the value of the
  squeeze-and-excitation body.
  • A vector [a] viewed as a column [a, 1] reads, at (i, u), the vector at i: both have row-major position i.
  • A column [a, 1] spread over b lanes, [a, b], reads, at (i, q), the column at (i, 0): the unit axis is read at 0
    and the row axis is kept.
  • The sum of a matrix [n, k] along its lanes (axis 1), into the zero accumulator, is at row r the sum over the k
    lanes q of the matrix at (r, q): the reduced index r with the lane q put back on axis 1 is (r, q).
-/
import Idealize.ShloMosaic.Lib.ValueLayout
import Idealize.ShloMosaic.PureOps.Ideal.Laws

noncomputable section

open scoped BigOperators

namespace Cert.KernelIdeal.SEValue

open Idealize.ShloMosaic Idealize.ShloMosaic.ValueIdx

variable {α : Type}

/-- A vector [a] viewed as a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b lanes reads, at (i, q), the column at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (q : Fin b) :
    broadcastTo ⟨2, ![a, b]⟩ v h (ix2 i q) = v (ix2 i (0 : Fin 1)) := by
  refine broadcastTo_apply v h (ix2 i q) (ix2 i (0 : Fin 1)) fun ax => ?_
  match ax with
  | ⟨0, _⟩ =>
    show i.val = if a = 1 then 0 else i.val
    split
    · have := i.isLt; omega
    · rfl
  | ⟨1, _⟩ => rfl

/-- The sum of a matrix [n, k] along its lanes, at row r: the sum over the lanes q of the entry (r, q). The summed
    axis, 1, is one of the matrix's two axes. -/
theorem laneSum_apply {n k : ℕ} (src : FVec Ideal ⟨2, ![n, k]⟩ .f32)
    (h : (⟨2, ![n, k]⟩ : Shape).Reduces ([1] : List (Fin 2)) ⟨1, ![n]⟩) (hφ : FKind.Formats .f32)
    (hacc : (0x00000000#32 : BitVec 32) = 0x00000000#32) (r : Fin n) :
    multiReduction .add ([1] : List (Fin 2)) ⟨1, ![n]⟩ src 0x00000000#32 h hφ hacc (ix1 r)
      = ∑ q : Fin k, src (ix2 r q) := by
  refine (Ideal.multiReduction_add_single src 0x00000000#32 h hφ hacc (ix1 r)).trans ?_
  refine Finset.sum_congr rfl fun q _ => congrArg src ?_
  funext c
  match c with
  | ⟨0, _⟩ => exact Fin.ext rfl
  | ⟨1, _⟩ => exact Fin.ext rfl

end Cert.KernelIdeal.SEValue

end
-- ==== Proof.KernelMatmul.lean ====
/-
  The first layer as the body computes it: the column of the 128 channel means, [128, 1], against the [128, 16] block
  of first-layer weights, contracting the channel axis of both, into the zero row [1, 16]. At the output index (u, j)
  the contraction runs over the one coordinate c of the channel axis; the left operand is read at (c, u) (its free axis
  is the output's unit axis) and the right operand at (c, j). So the entry is the sum over the 128 channels c of
  column (c, u) times weights (c, j).
-/
import proofs.«130839_g2000702401841808_pallasbulk_415_13_alg».proof.Proof.Gen.KernelIdeal
import Idealize.ShloMosaic.Lib.ValueIdx
import Idealize.ShloMosaic.PureOps.Ideal.Laws

noncomputable section

open scoped BigOperators

namespace Cert.KernelIdeal.SEValue

open Cert.KernelIdeal Idealize.ShloMosaic Idealize.ShloMosaic.ValueIdx

/-- The left operand's channel coordinate is the contraction's. -/
theorem lhs_chan (i : S1x16.Idx) (q : dot_S128x1_S128x16_S1x16_0_0_1_1_n_n.contr.Idx) :
    (dot_S128x1_S128x16_S1x16_0_0_1_1_n_n.lhsIdx i q 0).val = (q ⟨0, by decide⟩).val :=
  dot_S128x1_S128x16_S1x16_0_0_1_1_n_n.lhsIdx_val_of_single rfl i q

/-- The left operand's unit coordinate is the output's first. -/
theorem lhs_unit (i : S1x16.Idx) (q : dot_S128x1_S128x16_S1x16_0_0_1_1_n_n.contr.Idx) :
    (dot_S128x1_S128x16_S1x16_0_0_1_1_n_n.lhsIdx i q 1).val = (i 0).val := by
  unfold DotDims.lhsIdx
  rw [dif_neg (show ¬(1 : Fin S128x1.rank) ∈ dot_S128x1_S128x16_S1x16_0_0_1_1_n_n.lhsBatch by decide),
    dif_pos (show (1 : Fin S128x1.rank) ∈ dot_S128x1_S128x16_S1x16_0_0_1_1_n_n.lhsNonContracting by decide)]
  rfl

/-- The right operand's channel coordinate is the contraction's. -/
theorem rhs_chan (i : S1x16.Idx) (q : dot_S128x1_S128x16_S1x16_0_0_1_1_n_n.contr.Idx) :
    (dot_S128x1_S128x16_S1x16_0_0_1_1_n_n.rhsIdx i q 0).val = (q ⟨0, by decide⟩).val :=
  dot_S128x1_S128x16_S1x16_0_0_1_1_n_n.rhsIdx_val_of_single rfl i q

/-- The right operand's hidden-unit coordinate is the output's second. -/
theorem rhs_hidden (i : S1x16.Idx) (q : dot_S128x1_S128x16_S1x16_0_0_1_1_n_n.contr.Idx) :
    (dot_S128x1_S128x16_S1x16_0_0_1_1_n_n.rhsIdx i q 1).val = (i 1).val := by
  unfold DotDims.rhsIdx
  rw [dif_neg (show ¬(1 : Fin S128x16.rank) ∈ dot_S128x1_S128x16_S1x16_0_0_1_1_n_n.rhsBatch by decide),
    dif_pos (show (1 : Fin S128x16.rank) ∈ dot_S128x1_S128x16_S1x16_0_0_1_1_n_n.rhsNonContracting by decide)]
  rfl

/-- The product into the zero row, at (u, j): the sum over the channels c of column (c, u) times weights (c, j). -/
theorem matmul_col_apply (a : FVec Ideal S128x1 .f32) (b : FVec Ideal S128x16 .f32) (u : Fin 1) (j : Fin 16) :
    matmul dot_S128x1_S128x16_S1x16_0_0_1_1_n_n none a b (constant (F := Ideal) S1x16 .f32 0x00000000#32) (ix2 u j)
      = ∑ c : Fin 128, a (ix2 c u) * b (ix2 c j) := by
  simp only [matmul]
  rw [Ideal.matmul_constant_zero_apply, ← Equiv.sum_comp (contrEquiv1 dot_S128x1_S128x16_S1x16_0_0_1_1_n_n 128 rfl rfl).symm]
  refine Finset.sum_congr rfl fun k _ => ?_
  have hk := contrEquiv1_symm_val dot_S128x1_S128x16_S1x16_0_0_1_1_n_n 128 rfl rfl k
  have el : dot_S128x1_S128x16_S1x16_0_0_1_1_n_n.lhsIdx (ix2 u j) ((contrEquiv1 dot_S128x1_S128x16_S1x16_0_0_1_1_n_n 128 rfl rfl).symm k) = ix2 k u :=
    funext fun ax => Fin.ext (by
      match ax with
      | ⟨0, _⟩ => exact (lhs_chan _ _).trans hk
      | ⟨1, _⟩ => exact lhs_unit _ _)
  have er : dot_S128x1_S128x16_S1x16_0_0_1_1_n_n.rhsIdx (ix2 u j) ((contrEquiv1 dot_S128x1_S128x16_S1x16_0_0_1_1_n_n 128 rfl rfl).symm k) = ix2 k j :=
    funext fun ax => Fin.ext (by
      match ax with
      | ⟨0, _⟩ => exact (rhs_chan _ _).trans hk
      | ⟨1, _⟩ => exact rhs_hidden _ _)
  rw [el, er]

end Cert.KernelIdeal.SEValue

end
-- ==== Proof.KernelPayload.lean ====
/-
  The value the body stores, read at an index. From its block x : [1, 128, 16384] of the slabs, the [128, 16] block a
  of transposed first-layer weights and the [128, 16] block b of second-layer weights, the body computes, for each
  channel c, the gate
      logistic (the sum over the 16 hidden units j of b (c, j) · max (the sum over the 128 channels c' of
                  ((the sum over the 16384 positions s' of x (0, c', s')) · 2⁻¹⁴) · a (c', j)) 0)
  and stores x (0, c, s) times that gate at (u, c, s). Each step of the body is read at an index: the block seen as a
  matrix, the lane sums, the columns [128] → [128, 1], the product into the zero row, the clamp at the zero word (the
  extended real 0), the row spread over the channels, the column spread over the positions.
-/
import proofs.«130839_g2000702401841808_pallasbulk_415_13_alg».proof.Proof.Gen.KernelIdeal.Skeleton
import proofs.«130839_g2000702401841808_pallasbulk_415_13_alg».proof.Proof.Spec
import proofs.«130839_g2000702401841808_pallasbulk_415_13_alg».proof.Proof.KernelLayout
import proofs.«130839_g2000702401841808_pallasbulk_415_13_alg».proof.Proof.KernelMatmul

noncomputable section

open scoped BigOperators

namespace Cert.KernelIdeal.SEValue

open Cert.KernelIdeal Idealize.ShloMosaic Idealize.ShloMosaic.ValueIdx

/-- The logistic of a vector at an index is the logistic of its entry there. -/
theorem logistic_apply {s : Shape} {φ : FTy} (x : FVec Ideal s φ) (i : s.Idx) : logistic x i = Ideal.logistic (x i) := rfl

/-- The zero word is the extended real 0. -/
theorem scalar_zero : Scalar.ofBits (F := Ideal) .f32 0x00000000#32 = (0 : EReal) := Ideal.ofBits_zero_f32

/-- The gate of channel c as the body computes it from its three blocks. -/
def blockGate (x : S1x128x16384.Idx → EReal) (a b : S128x16.Idx → EReal) (c : Fin 128) : EReal :=
  Ideal.logistic (∑ j : Fin 16, b (ix2 c j) *
    max (∑ c' : Fin 128, ((∑ s' : Fin 16384, x (ix3 (0 : Fin 1) c' s')) * Cert.SE.invS) * a (ix2 c' j)) 0)

/-- The stored value at (u, c, s): the block's entry (0, c, s) times the gate of channel c. -/
theorem pay_apply (v0 : Vec Ideal S1x128x16384 .f32) (v6 v11 : Vec Ideal S128x16 .f32)
    (u : Fin 1) (c : Fin 128) (s : Fin 16384) :
    Gen.k0_pay1 (F := Ideal) v0 v6 v11 (ix3 u c s) = (v0 (ix3 (0 : Fin 1) c s) : EReal) * blockGate v0 v6 v11 c := by
  unfold Gen.k0_pay1 blockGate Cert.SE.invS
  simp only [shapeCast_ab_1ab_apply, shapeCast_1ab_ab_apply, mulf_apply, broadcastTo_a1_ab_apply, logistic_apply,
    shapeCast_a_a1_apply, laneSum_apply, broadcastTo_1b_ab_apply, maximumf_apply, broadcast_apply,
    matmul_col_apply, shapeCast_self, scalar_zero]
  rfl

/-- When the first block is slab n of an array X of slabs, the second the first-layer weights w1 read transposed and
    the third the second-layer weights w2, the stored value at (u, c, s) is the scaled slab entry (n, c, s): the block's
    lane sums are the channel sums of slab n, and the gate the body computes is the gate of (n, c). -/
theorem pay_scaled (x0 : Vec Ideal S1x128x16384 .f32) (x1 x2 : Vec Ideal S128x16 .f32)
    (X : Cert.SE.SX.Idx → EReal) (w1 : Cert.SE.SW1.Idx → EReal) (w2 : Cert.SE.SW2.Idx → EReal) (n : Fin 8)
    (h0 : ∀ (c : Fin 128) (s : Fin 16384), x0 (ix3 (0 : Fin 1) c s) = X (ix3 n c s))
    (h1 : ∀ (c : Fin 128) (j : Fin 16), x1 (ix2 c j) = w1 (ix2 j c))
    (h2 : ∀ (c : Fin 128) (j : Fin 16), x2 (ix2 c j) = w2 (ix2 c j))
    (u : Fin 1) (c : Fin 128) (s : Fin 16384) :
    Gen.k0_pay1 (F := Ideal) x0 x1 x2 (ix3 u c s) = Cert.SE.scaled X w1 w2 (ix3 n c s) := by
  rw [pay_apply, Cert.SE.scaled_ix3, h0]
  unfold blockGate Cert.SE.gateOf Cert.SE.hiddenOf Cert.SE.rowSum
  simp only [h0, h1, h2]

end Cert.KernelIdeal.SEValue

end
-- ==== Proof.KernelRegion.lean ====
/-
  The result window's array after the launch. Write `slabs` for the array [8, 128, 16384] of scaled slabs as a function
  of the three arguments: the first argument with its positions flattened, every channel of every batch element
  multiplied by its gate.
  • Point t writes back block t of `slabs`: the body's stored value at (u, c, s) is the scaled entry (t, c, s), because
    its slab block is slab t, its first weight block the transposed first-layer weights (so the body's sum over the
    channels of mean · weight (c, j) is the sum of mean · w1 (j, c)), its second weight block the second-layer weights;
    and the result block's element (u, c, s) sits at (t, c, s) of the array.
  • The 8 blocks cover the array: index (n, c, s) lies in the block of point n.
  So the array ends holding `slabs`.
-/
import proofs.«130839_g2000702401841808_pallasbulk_415_13_alg».proof.Proof.KernelBlocks
import proofs.«130839_g2000702401841808_pallasbulk_415_13_alg».proof.Proof.KernelPayload

noncomputable section

namespace Cert.KernelIdeal.SEValue

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The scaled slabs as a function of the three arguments. -/
abbrev slabs (c : Dev nD) : Buf (Elt Ideal) ((c : Thread nD τ).loc main_v2) :=
  Cert.SE.scaled (shapeCast Cert.SE.SX (m ((c : Thread nD τ).loc main_arg0)) Facts₀.shapeCasts_S8x128x16x32x32_S8x128x16384)
    (m ((c : Thread nD τ).loc main_arg1)) (m ((c : Thread nD τ).loc main_arg2))

/-- What point t writes back is block t of the scaled slabs. -/
theorem flushed_eq (c : Dev nD) (t : Fin cfg0.N) :
    (dats m 0 c).flushed 3 t = ((cfg0.win 3).blk t).view.read (Elt Ideal) (slabs m c) := by
  show (cfg0.win 3).cut (grid0.coords t) ((dats m 0 c).after 3 t) = _
  rw [after0_3]
  unfold out0_3
  rw [View.canon_unit_zero hz3]
  simp only [View.ld_unit_zero (S := S1x128x16384) hz3, View.ld_unit_zero (S := S128x16) hz2]
  refine funext fun (j : S1x128x16384.Idx) => ?_
  obtain ⟨u, ch, s, rfl⟩ : ∃ (u : Fin 1) (ch : Fin 128) (s : Fin 16384), j = ix3 u ch s := ⟨j 0, j 1, j 2, eq_ix3 j⟩
  have hN : cfg0.N = 8 := N_0
  have ht : t.val < 8 := by have := t.isLt; omega
  obtain ⟨-, -, -, -, -, -, -, e7, e8, e9⟩ := idx_facts t
  refine (pay_scaled (iblk m c 0 t) (iblk m c 1 t) (iblk m c 2 t)
    (shapeCast Cert.SE.SX (m ((c : Thread nD τ).loc main_arg0)) Facts₀.shapeCasts_S8x128x16x32x32_S8x128x16384)
    (m ((c : Thread nD τ).loc main_arg1)) (m ((c : Thread nD τ).loc main_arg2)) ⟨t.val, ht⟩
    (fun ch s => (iblk0_apply m c t ⟨t.val, ht⟩ rfl ch s).trans (congrFun (V_main_v0 m c) _))
    (fun ch j => (iblk1_apply m c t ch j).trans ((congrFun (V_main_v1 m c) _).trans (transpose_ix2_apply _ _ ch j)))
    (fun ch j => (iblk2_apply m c t ch j).trans (congrFun (V_main_arg2 m c) _)) u ch s).trans ?_
  rw [View.read_apply]
  refine congrArg (slabs m c) ?_
  funext a
  apply Fin.ext
  have hu : u.val = 0 := by omega
  match a with
  | ⟨0, _⟩ => show t.val = win0_3.index t (0 : Fin 3) * 1 + 1 * u.val; rw [e7, hu]; omega
  | ⟨1, _⟩ => show ch.val = win0_3.index t (1 : Fin 3) * 128 + 1 * ch.val; rw [e8]; omega
  | ⟨2, _⟩ => show s.val = win0_3.index t (2 : Fin 3) * 16384 + 1 * s.val; rw [e9]; omega

/-- An index of the array is in point t's block iff each coordinate is in the block's range on its axis. -/
theorem mem_blk (t : Fin cfg0.N) (i : S8x128x16384.Idx) :
    i ∈ ((cfg0.win 3).blk t).view.set ↔ ∀ a : Fin 3, win0_3.index t a * S1x128x16384.size a ≤ (i a).val
      ∧ (i a).val < win0_3.index t a * S1x128x16384.size a + S1x128x16384.size a := by
  show i ∈ ((View.whole main_v2).slice (win0_3.rect t)).set ↔ _
  rw [View.set_slice_whole, Rect.mem_set_unit]
  exact Iff.rfl

/-- Every index (n, c, s) of the array is in the block of point n. -/
theorem cover (i : S8x128x16384.Idx) :
    ∃ t : Fin cfg0.N, (cfg0.win 3).flush t = true ∧ i ∈ ((cfg0.win 3).blk t).view.set := by
  have hN : cfg0.N = 8 := N_0
  have h0 : (i 0).val < 8 := (i 0).isLt
  have h1 : (i 1).val < 128 := (i 1).isLt
  have h2 : (i 2).val < 16384 := (i 2).isLt
  have hlt : (i 0).val < cfg0.N := by omega
  refine ⟨⟨(i 0).val, hlt⟩, flush0_3 _, ?_⟩
  obtain ⟨-, -, -, -, -, -, -, e7, e8, e9⟩ := idx_facts ⟨(i 0).val, hlt⟩
  have e7' : win0_3.index ⟨(i 0).val, hlt⟩ (0 : Fin 3) = (i 0).val := e7
  rw [mem_blk]
  intro a
  match a with
  | ⟨0, _⟩ => show win0_3.index _ (0 : Fin 3) * 1 ≤ (i 0).val ∧ (i 0).val < win0_3.index _ (0 : Fin 3) * 1 + 1; rw [e7']; omega
  | ⟨1, _⟩ => show win0_3.index _ (1 : Fin 3) * 128 ≤ (i 1).val ∧ (i 1).val < win0_3.index _ (1 : Fin 3) * 128 + 128; rw [e8]; omega
  | ⟨2, _⟩ => show win0_3.index _ (2 : Fin 3) * 16384 ≤ (i 2).val ∧ (i 2).val < win0_3.index _ (2 : Fin 3) * 16384 + 16384; rw [e9]; omega

/-- The result window's array after the launch: the scaled slabs. -/
theorem final (c : Dev nD) : (dats m 0 c).arrAt 3 cfg0.N = slabs m c :=
  (dats m 0 c).arrAt_eq_of_cover 3 (slabs m c) (fun t _ => flushed_eq m c t) cover

end Cert.KernelIdeal.SEValue

end
-- ==== Proof.KernelValue.lean ====
/-
  The value of the whole program. After the launch the one remaining host line views the result window's array
  [8, 128, 16384], which holds the scaled slabs, as [8, 128, 16, 32, 32]: the positions unflattened. That is the
  specification's `result` of the three arguments: positions flattened, every channel scaled by its gate, positions
  unflattened. The three arguments end as launched: no line before or after the launch writes them, and the launch
  only reads them.
-/
import proofs.«130839_g2000702401841808_pallasbulk_415_13_alg».proof.Proof.KernelRegion
import Idealize.ShloMosaic.Lib.Tactic

noncomputable section

namespace Cert.KernelIdeal.SEValue

open Cert.KernelIdeal Cert.KernelIdeal.Gen Idealize.ShloMosaic Idealize.ShloMosaic.TcCoe Idealize.ShloMosaic.ValueIdx
open Idealize.SL.Sem
open Idealize.ShloMosaic.Pipeline (Dat)

/-- The last array, after the line that follows the launch: the scaled slabs with their positions unflattened. -/
theorem tail_v3 (m : (ℓ : Loc nD τ sig) → Buf (Elt Ideal) ℓ) (c : Dev nD) :
    Pipeline.afterTail₀ cfgs (dats m) 0 (V0 m) [hostOps1] c main_v3
      = Cert.SE.result Facts₀.shapeCasts_S8x128x16x32x32_S8x128x16384 Facts₀.shapeCasts_S8x128x16384_S8x128x16x32x32
          (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v3) = _
  after_results
  rw [show Pipeline.withArrays (cfgs 0).spec c (V0 m c) (fun w => (dats m 0 c).arrAt w (cfgs 0).N)
      (Proc.devRef .tc main_v2) = slabs m c from
    (Pipeline.withArrays_arr spec0 launch0.win.arr_inj c _ _ 3).trans (final m c)]
  rfl

/-- Every weakly fair execution of the program ends with the last array at the specification's result of the three
    arguments and the arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = Cert.SE.result Facts₀.shapeCasts_S8x128x16x32x32_S8x128x16384 Facts₀.shapeCasts_S8x128x16384_S8x128x16x32x32 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (tail_v3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.SEValue

end
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.RefScale.lean ====
/-
  The reference's second kernel region: every position of a channel multiplied by the channel's gate, tile by tile.
  The grid is 8 batch elements by 3 tiles of 6144 positions; the 16384 positions are not a multiple of 6144, so the
  third tile overhangs the array by 2048 positions: its fetch brings 4096 positions and leaves the rest of the staging
  tile at words nothing names, and its write-back writes 4096 positions. The body multiplies the whole staging tile,
  overhang included, by the gate column; since the product at a position reads the tile at that position only, what
  lands inside the array does not depend on the words of the overhang.
  Stated at a parameter `V`, the buffers' contents when the region is entered.
-/
import proofs.«130839_g2000702401841808_pallasbulk_415_13_alg».proof.Proof.Gen.ReferenceIdeal.Launch
import proofs.«130839_g2000702401841808_pallasbulk_415_13_alg».proof.Proof.Gen.ReferenceIdeal.Skeleton
import proofs.«130839_g2000702401841808_pallasbulk_415_13_alg».proof.Proof.Gen.ReferenceIdeal.Points
import proofs.«130839_g2000702401841808_pallasbulk_415_13_alg».proof.Proof.LibColumnBroadcast
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueLayout
import Idealize.ShloMosaic.Lib.Ring
import Idealize.ShloMosaic.Lib.Tactic

set_option maxRecDepth 16384

noncomputable section

namespace Cert.ReferenceIdeal.Scale

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The product at a position -/

/-- The stored tile at channel `i`, position `j`: the loaded tile there times the gate column at channel `i`. -/
theorem pay_apply (v0 : Vec F S1x128x6144 .f32) (v2 : Vec F S1x128x1 .f32) (u : Fin 1) (i : Fin 128) (j : Fin 6144) :
    k1_pay1 v0 v2 (ix3 u i j) = FloatOps.mulf (v0 (ix3 (0 : Fin 1) i j)) (v2 (ix3 (0 : Fin 1) i (0 : Fin 1))) := by
  unfold k1_pay1
  refine (shapeCast_ab_1ab_apply _ _ u i j).trans ?_
  show FloatOps.mulf (shapeCast S128x6144 v0 _ (ix2 i j)) (broadcastTo S128x6144 (shapeCast S128x1 v2 _) _ (ix2 i j)) = _
  rw [shapeCast_1ab_ab_apply, Cert.LibColumnBroadcast.broadcastTo_a1_ab_apply, shapeCast_1ab_ab_apply]

/-- Two tiles that agree at a position give products that agree there. -/
theorem pay_congr (v0 v0' : Vec F S1x128x6144 .f32) (v2 : Vec F S1x128x1 .f32) (y : S1x128x6144.Idx) (h : v0 y = v0' y) :
    k1_pay1 v0 v2 y = k1_pay1 v0' v2 y := by
  obtain ⟨u, i, j, rfl⟩ : ∃ (u : Fin 1) (i : Fin 128) (j : Fin 6144), y = ix3 u i j := ⟨y 0, y 1, y 2, eq_ix3 y⟩
  have hu : u = (0 : Fin 1) := Subsingleton.elim _ _
  subst hu
  rw [pay_apply, pay_apply, h]

/-! ## The body's accesses and what it leaves -/

abbrev rT : Rect S1x128x6144 := Rect.unit (s := S1x128x6144) ![0, 0, 0] S1x128x6144.size inb_S1x128x6144_S1x128x6144_0_0_0
abbrev rC : Rect S1x128x1 := Rect.unit (s := S1x128x1) ![0, 0, 0] S1x128x1.size inb_S1x128x1_S1x128x1_0_0_0

/-- The output tile's staging buffer after the body: its one store, over the two loaded blocks. -/
def outTile (x0 : Vec F S1x128x6144 .f32) (x1 : Vec F S1x128x1 .f32) : Vec F S1x128x6144 .f32 :=
  View.canon [⟨rT, k1_pay1 (View.ld x0 rT) (View.ld x1 rC)⟩]

theorem cover_outTile (p0 : Vec F S1x128x6144 .f32) (y : S1x128x6144.Idx) :
    ∃ pc ∈ ([⟨rT, p0⟩] : List (View.Piece (Elt F) S1x128x6144 .f32)), y ∈ pc.1.set :=
  View.cover_of_tiled [⟨rT, p0⟩] S1x128x6144.size (by rfl) y

/-- The store covers the whole tile and the loads read the whole blocks: the buffer holds the product. -/
theorem outTile_eq (x0 : Vec F S1x128x6144 .f32) (x1 : Vec F S1x128x1 .f32) : outTile x0 x1 = k1_pay1 x0 x1 := by
  have hz : (![0, 0, 0] : Fin 3 → Nat) = fun _ => 0 := funext fun a => by fin_cases a <;> rfl
  unfold outTile
  rw [View.canon_unit_zero hz]
  rw [View.ld_unit_zero (S := S1x128x6144) hz, View.ld_unit_zero (S := S1x128x1) hz]

set_option maxHeartbeats 1000000 in
/-- The body on whole staging buffers: the input tile and the gate column are left as found, the output tile ends
    holding `outTile` of the two. -/
theorem sound_kernel (c : Dev nD) (E : Set ℕ) (i : grid1.Coords) (arg2 : Memref sig .tc .vmem S1x128x6144 .f32) (harg2 : arg2.IsWhole)
    (arg3 : Memref sig .tc .vmem S1x128x1 .f32) (harg3 : arg3.IsWhole) (arg4 : Memref sig .tc .vmem S1x128x6144 .f32) (harg4 : arg4.IsWhole)
    (x0 : Vec F S1x128x6144 .f32) (x1 : Vec F S1x128x1 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outTile x0 x1)) -∗ K ⟨⟩))
      ⊢ wp frame (wpE (defs₀ (F := F)) Variants.none c none) E (cc1__scale_kernel i arg2 harg2 arg3 harg3 arg4 harg4) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_outTile _)

/-! ## The proof data -/

section Data

variable (V : (c : Dev nD) → (b : Ref sig .tc) → Buf (Elt F) ((c : Thread nD τ).loc b))

/-- Window `w`'s block at point `t`, its part inside the array, read off the array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The word the proof writes for a staging position past the array's end (nothing reads it). -/
abbrev pad : S1x128x6144.Idx → Elt F .f32 := fun _ => Scalar.ofBits .f32 0#32

/-- The input tile at point `t`: the fetched positions, filled out to the staging tile. -/
def tile (c : Dev nD) (t : Fin cfg1.N) : S1x128x6144.Idx → Elt F .f32 :=
  win1_0.fill (grid1.coords t) pad (iblk V c 0 t)

/-- After the body at point `t`: the input tile and the gate column as fetched, the output tile their product. -/
def dat (c : Dev nD) : Dat τ (Elt F) Unit ℕ (UR sig nD τ) ℕ cfg1 c where
  A w := V c (Pipeline.arrRef spec1 w)
  after w t := match w with
    | ⟨0, _⟩ => tile V c t
    | ⟨1, _⟩ => iblk V c 1 t
    | ⟨2, _⟩ => k1_pay1 (tile V c t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = tile V c t := by dsimp only [dat]
theorem after_1 (c : Dev nD) (t : Fin cfg1.N) : (dat V c).after 1 t = iblk V c 1 t := by dsimp only [dat]
theorem after_2 (c : Dev nD) (t : Fin cfg1.N) : (dat V c).after 2 t = k1_pay1 (tile V c t) (iblk V c 1 t) := by dsimp only [dat]

/-- The input tile is fetched at every point: the fetched positions over whatever the buffer held. -/
theorem before_0 (c : Dev nD) (t : Fin cfg1.N) (d) :
    (dat V c).before 0 t d = win1_0.fill (grid1.coords t) d (iblk V c 0 t) := by
  unfold Dat.before; rw [if_pos (fetch1_0 t)]
  unfold Dat.fetched Dat.blockOf iblk; rw [A_eq V c 0]

/-- The gate column's buffer holds its block at every point, fetched there or not. -/
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq V c 1]; try rfl) t d).trans
    (by unfold Dat.fetched Dat.blockOf iblk; rw [A_eq V c 1]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- The two tiles are stated on their part inside the array only. -/
def bodyPost (c : Dev nD) (t : Fin cfg1.N) : sProp 𝕄 :=
  iprop((dat V c).Φ t.succ ∗ (dat V c).owesAt () t.succ
    ∗ (∃ d, owns (c : Thread nD τ) (st1_0 t) fullShare (win1_0.fill (grid1.coords t) d (win1_0.cut (grid1.coords t) ((dat V c).after 0 t))))
    ∗ owns (c : Thread nD τ) (st1_1 t) fullShare ((dat V c).after 1 t)
    ∗ (∃ d, owns (c : Thread nD τ) (st1_2 t) fullShare (win1_2.fill (grid1.coords t) d (win1_2.cut (grid1.coords t) ((dat V c).after 2 t)))))

/-- On the part inside the array the product of ANY filling of the fetched tile is the product of the proof's filling. -/
theorem cut_pay (c : Dev nD) (t : Fin cfg1.N) (d : S1x128x6144.Idx → Elt F .f32) :
    win1_2.cut (grid1.coords t) (k1_pay1 (win1_0.fill (grid1.coords t) d (iblk V c 0 t)) (iblk V c 1 t))
      = win1_2.cut (grid1.coords t) (k1_pay1 (tile V c t) (iblk V c 1 t)) := by
  funext j
  refine pay_congr _ _ _ _ ?_
  unfold tile
  exact ((win1_0.fill_xinj (grid1.coords t) d (iblk V c 0 t) j).trans (win1_0.fill_xinj (grid1.coords t) pad (iblk V c 0 t) j).symm)

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ (grid1.coords t) _ _ _ _ _ _ (win1_0.fill (grid1.coords t) d0 (iblk V c 0 t)) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show win1_0.cut (grid1.coords t) (tile V c t) = iblk V c 0 t from win1_0.cut_fill _ _ _]
    iexact H0
  isplitl [H1]; · iexact H1
  iexists (k1_pay1 (win1_0.fill (grid1.coords t) d0 (iblk V c 0 t)) (iblk V c 1 t))
  rw [← cut_pay V c t d0, win1_2.fill_cut, ← outTile_eq]
  iexact H2

theorem body_obligation (c : Dev nD) : BodyObligationLoose (dat (F := F) V c) (defs₀ (F := F)) Variants.none () Set.univ := fun t => by
  rw [bigSep_W1, bigSep_W1]
  exact sound_body V c t

end Data

end Cert.ReferenceIdeal.Scale

end
-- ==== Proof.RefPoolRuns.lean ====
/-
  The reference's first kernel region, the body's three cases. The grid is 8 batch elements by 3 tiles of 6144
  positions, and the output block of a batch element — one running sum per channel — stays in its staging buffer over
  the element's three tiles. At the first tile the body stores zeros and then the zeros plus the tile's sums over the
  positions; at the second, what it finds plus the tile's sums; at the third, what it finds plus the sums of the tile
  with every position from 4096 on replaced by zero (the third tile overhangs the array from there).
  Each case is run once on whole staging buffers: the stores it makes into the output's buffer are found by the run.
-/
import proofs.«130839_g2000702401841808_pallasbulk_415_13_alg».proof.Proof.Gen.ReferenceIdeal.Launch
import proofs.«130839_g2000702401841808_pallasbulk_415_13_alg».proof.Proof.Gen.ReferenceIdeal.Skeleton
import proofs.«130839_g2000702401841808_pallasbulk_415_13_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueLayout
import Idealize.ShloMosaic.Lib.Ring
import Idealize.ShloMosaic.Lib.Tactic

set_option maxRecDepth 16384
set_option maxHeartbeats 1000000

noncomputable section

namespace Cert.ReferenceIdeal.Pool

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The first tile of a batch element: zeros stored, read back, the tile's sums added, stored. -/
noncomputable def runA (c : Dev nD) (i : grid0.Coords) (arg2 : Memref sig .tc .vmem S1x128x6144 .f32) (harg2 : arg2.IsWhole)
    (arg3 : Memref sig .tc .vmem S1x128x1 .f32) (harg3 : arg3.IsWhole)
    (h1 : k0_cond1 i = 1#1) (h2 : k0_cond2 i = 1#1) (h3 : ¬k0_cond3 i = 1#1) (x0 : Vec F S1x128x6144 .f32) :
    { L : List (View.Piece (Elt F) S1x128x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L)) -∗ K ⟨⟩))
          ⊢ wp frame (wpE (defs₀ (F := F)) Variants.none c none) E (cc0__pool_kernel i arg2 harg2 arg3 harg3) K } := by
  refine ⟨?_, fun E K => ?run⟩
  case run =>
    simp only [cc0__pool_kernel_eq_skeleton]; unfold cc0__pool_kernel_skel
    unfold owns
    iintro ⟨⟨%f0, %hf0, H0⟩, ⟨%d1, %f1, -, H1⟩, Hk⟩
    obtain rfl := harg2.eq_unread hf0
    sl_exec (disch := first | exact h1 | exact h2 | exact h3)
    sl_step
    iapply Hk
    isplitl [H0]
    · iexists _; isplitr; · ipureintro; exact harg2.read_unread _
      iexact H0
    iexists _; iexact H1

/-- The second tile: what the buffer holds plus the tile's sums, stored. -/
noncomputable def runB (c : Dev nD) (i : grid0.Coords) (arg2 : Memref sig .tc .vmem S1x128x6144 .f32) (harg2 : arg2.IsWhole)
    (arg3 : Memref sig .tc .vmem S1x128x1 .f32) (harg3 : arg3.IsWhole)
    (h1 : ¬k0_cond1 i = 1#1) (h2 : k0_cond2 i = 1#1) (h3 : ¬k0_cond3 i = 1#1) (x0 : Vec F S1x128x6144 .f32) (xo : Vec F S1x128x1 .f32) :
    { L : List (View.Piece (Elt F) S1x128x1 .f32) //
      ∀ (E : Set ℕ) (K : PUnit → sProp 𝕄),
        iprop(owns (c : Thread nD τ) arg2 fullShare x0 ∗ owns (c : Thread nD τ) arg3 fullShare xo
            ∗ (iprop(owns (c : Thread nD τ) arg2 fullShare x0 ∗ (∃ f, arg3.view.loc (c : Thread nD τ) ↦[arg3.view.set]{fullShare} arg3.view.writes (Elt F) f L)) -∗ K ⟨⟩))
          ⊢ wp frame (wpE (defs₀ (F := F)) Variants.none c none) E (cc0__pool_kernel i arg2 harg2 arg3 harg3) K } := by
  refine ⟨?_, fun E K => ?run⟩
  case run =>
    simp only [cc0__pool_kernel_eq_skeleton]; unfold cc0__pool_kernel_skel
    unfold owns
    iintro ⟨⟨%f0, %hf0, H0⟩, ⟨%f1, %hf1, H1⟩, Hk⟩
    obtain rfl := harg2.eq_unread hf0; obtain rfl := harg3.eq_unread hf1
    sl_exec (disch := first | exact h1 | exact h2 | exact h3)
    sl_step
    iapply Hk
    isplitl [H0]
    · iexists _; isplitr; · ipureintro; exact harg2.read_unread _
      iexact H0
    iexists _; iexact H1

/-- The third tile: what the buffer holds plus the sums of the tile masked past position 4096, stored. -/
noncomputable def runC (c : Dev nD) (i : grid0.Coords) (arg2 : Memref sig .tc .vmem S1x128x6144 .f32) (harg2 : arg2.IsWhole)
    (arg3 : Memref sig .tc .vmem S1x128x1 .f32) (harg3 : arg3.IsWhole)
    (h1 : ¬k0_cond1 i = 1#1) (h2 : ¬k0_cond2 i = 1#1) (h3 : k0_cond3 i = 1#1) (x0 : Vec F S1x128x6144 .f32) (xo : Vec F S1x128x1 .f32) :
    { L : List (View.Piece (Elt F) S1x128x1 .f32) //
      ∀ (E : Set ℕ) (K : PUnit → sProp 𝕄),
        iprop(owns (c : Thread nD τ) arg2 fullShare x0 ∗ owns (c : Thread nD τ) arg3 fullShare xo
            ∗ (iprop(owns (c : Thread nD τ) arg2 fullShare x0 ∗ (∃ f, arg3.view.loc (c : Thread nD τ) ↦[arg3.view.set]{fullShare} arg3.view.writes (Elt F) f L)) -∗ K ⟨⟩))
          ⊢ wp frame (wpE (defs₀ (F := F)) Variants.none c none) E (cc0__pool_kernel i arg2 harg2 arg3 harg3) K } := by
  refine ⟨?_, fun E K => ?run⟩
  case run =>
    simp only [cc0__pool_kernel_eq_skeleton]; unfold cc0__pool_kernel_skel
    unfold owns
    iintro ⟨⟨%f0, %hf0, H0⟩, ⟨%f1, %hf1, H1⟩, Hk⟩
    obtain rfl := harg2.eq_unread hf0; obtain rfl := harg3.eq_unread hf1
    sl_exec (disch := first | exact h1 | exact h2 | exact h3)
    sl_step
    iapply Hk
    isplitl [H0]
    · iexists _; isplitr; · ipureintro; exact harg2.read_unread _
      iexact H0
    iexists _; iexact H1

end Cert.ReferenceIdeal.Pool

end
-- ==== Proof.RefPoolCases.lean ====
/-
  The reference's first kernel region: what each of the body's three cases leaves in the output's staging buffer, as a
  function of the two buffers the case reads. The first tile of a batch element leaves the tile's sums over its
  positions added to zeros; the second leaves them added to what it found; the third leaves, added to what it found,
  the sums of the MASKED tile: the tile with every position from 16384 − 2·6144 = 4096 on replaced by zero. The masked
  tile reads the tile below position 4096 only, so two tiles that agree there have one masked tile.
-/
import proofs.«130839_g2000702401841808_pallasbulk_415_13_alg».proof.Proof.Gen.ReferenceIdeal.Launch
import proofs.«130839_g2000702401841808_pallasbulk_415_13_alg».proof.Proof.Gen.ReferenceIdeal.Skeleton
import proofs.«130839_g2000702401841808_pallasbulk_415_13_alg».proof.Proof.Gen.ReferenceIdeal.Points
import proofs.«130839_g2000702401841808_pallasbulk_415_13_alg».proof.Proof.RefPoolRuns
import Idealize.ShloMosaic.Lib.DynamicIndex
import Idealize.ShloMosaic.Lib.WordArith
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueLayout
import Idealize.ShloMosaic.Lib.Ring
import Idealize.ShloMosaic.Lib.Tactic

set_option maxRecDepth 16384

noncomputable section

namespace Cert.ReferenceIdeal.Pool

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev rT : Rect S1x128x6144 := Rect.unit (s := S1x128x6144) ![0, 0, 0] S1x128x6144.size inb_S1x128x6144_S1x128x6144_0_0_0
abbrev rA : Rect S1x128x1 := Rect.unit (s := S1x128x1) ![0, 0, 0] S1x128x1.size inb_S1x128x1_S1x128x1_0_0_0

/-- One staging buffer of the output window, through which its contents are stated. -/
abbrev VO : View sig .tc .vmem S1x128x1 .f32 := (Memref.whole cc0_stg1_0 : Memref sig .tc .vmem S1x128x1 .f32).view

theorem hz3 : (![0, 0, 0] : Fin 3 → Nat) = fun _ => 0 := funext fun a => by fin_cases a <;> rfl

section Cases

variable (c : Dev nD) (i : grid0.Coords) (arg2 : Memref sig .tc .vmem S1x128x6144 .f32) (harg2 : arg2.IsWhole)
  (arg3 : Memref sig .tc .vmem S1x128x1 .f32) (harg3 : arg3.IsWhole)

/-! ## Each case's stores cover the output's block -/

theorem coverA (h1 : k0_cond1 i = 1#1) (h2 : k0_cond2 i = 1#1) (h3 : ¬k0_cond3 i = 1#1) (x0 : Vec F S1x128x6144 .f32) (y : S1x128x1.Idx) :
    ∃ pc ∈ (runA c i arg2 harg2 arg3 harg3 h1 h2 h3 x0).1, y ∈ pc.1.set :=
  View.cover_of_tiledL (runA c i arg2 harg2 arg3 harg3 h1 h2 h3 x0).1 S1x128x1.size (by sl_kernel_rfl) y

theorem coverB (h1 : ¬k0_cond1 i = 1#1) (h2 : k0_cond2 i = 1#1) (h3 : ¬k0_cond3 i = 1#1) (x0 : Vec F S1x128x6144 .f32) (xo : Vec F S1x128x1 .f32) (y : S1x128x1.Idx) :
    ∃ pc ∈ (runB c i arg2 harg2 arg3 harg3 h1 h2 h3 x0 xo).1, y ∈ pc.1.set :=
  View.cover_of_tiledL (runB c i arg2 harg2 arg3 harg3 h1 h2 h3 x0 xo).1 S1x128x1.size (by sl_kernel_rfl) y

theorem coverC (h1 : ¬k0_cond1 i = 1#1) (h2 : ¬k0_cond2 i = 1#1) (h3 : k0_cond3 i = 1#1) (x0 : Vec F S1x128x6144 .f32) (xo : Vec F S1x128x1 .f32) (y : S1x128x1.Idx) :
    ∃ pc ∈ (runC c i arg2 harg2 arg3 harg3 h1 h2 h3 x0 xo).1, y ∈ pc.1.set :=
  View.cover_of_tiledL (runC c i arg2 harg2 arg3 harg3 h1 h2 h3 x0 xo).1 S1x128x1.size (by sl_kernel_rfl) y

/-! ## What each case leaves -/

/-- The first tile: the tile's sums added to the zeros just stored. -/
theorem leftA (h1 : k0_cond1 i = 1#1) (h2 : k0_cond2 i = 1#1) (h3 : ¬k0_cond3 i = 1#1) (x0 : Vec F S1x128x6144 .f32) :
    View.canon (runA c i arg2 harg2 arg3 harg3 h1 h2 h3 x0).1 = k0_pay3 x0 (k0_pay1 (F := F)) := by
  unfold runA
  dsimp only
  sl_unfold_words
  rw [View.canon_cons_unit_zero hz3]
  simp only [View.readAt_eq_ld, harg2.read_unread, View.ld_unit_zero (S := S1x128x6144) hz3, View.readCov_unit_zero arg3.view hz3]

/-- The second tile: the tile's sums added to what the buffer held. -/
theorem leftB (h1 : ¬k0_cond1 i = 1#1) (h2 : k0_cond2 i = 1#1) (h3 : ¬k0_cond3 i = 1#1) (x0 : Vec F S1x128x6144 .f32) (xo : Vec F S1x128x1 .f32) :
    View.canon (runB c i arg2 harg2 arg3 harg3 h1 h2 h3 x0 xo).1 = k0_pay3 x0 xo := by
  unfold runB
  dsimp only
  rw [View.canon_unit_zero hz3]
  simp only [View.readAt_eq_ld, harg2.read_unread, harg3.read_unread, View.ld_unit_zero (S := S1x128x6144) hz3, View.ld_unit_zero (S := S1x128x1) hz3]

/-- The third tile: the masked tile's sums added to what the buffer held. -/
theorem leftC (h1 : ¬k0_cond1 i = 1#1) (h2 : ¬k0_cond2 i = 1#1) (h3 : k0_cond3 i = 1#1) (x0 : Vec F S1x128x6144 .f32) (xo : Vec F S1x128x1 .f32) :
    View.canon (runC c i arg2 harg2 arg3 harg3 h1 h2 h3 x0 xo).1 = k0_pay4 i x0 xo := by
  unfold runC
  dsimp only
  rw [View.canon_unit_zero hz3]
  simp only [View.readAt_eq_ld, harg2.read_unread, harg3.read_unread, View.ld_unit_zero (S := S1x128x6144) hz3, View.ld_unit_zero (S := S1x128x1) hz3]

end Cases

/-! ## The masked tile -/

/-- The tile as a matrix of channels by positions, every position from `16384 − (tile index)·6144` on replaced by zero. -/
def maskedTile (i : grid0.Coords) (v3 : Vec F S1x128x6144 .f32) : FVec F S128x6144 .f32 :=
  select (cmpi .slt (iota .tc S128x6144 32 [1] iota_S128x6144_d1_w32)
      (broadcast S128x6144 (Scalar.subi 16384#32 (Scalar.muli (BitVec.ofNat 32 (i 1).val) 6144#32))))
    (k0_pay2 v3) (broadcast S128x6144 (Scalar.ofBits .f32 0x00000000#32))

/-- A matrix's sums over the positions, as a column, added to the column a buffer held. -/
def addSums (mt : FVec F S128x6144 .f32) (v18 : Vec F S1x128x1 .f32) : FVec F S1x128x1 .f32 :=
  shapeCast S1x128x1
    (addf (shapeCast S128x1 v18 shapeCasts_S1x128x1_S128x1)
      (shapeCast S128x1 (multiReduction .add [1] S128 mt 0x00000000#32 reduces_S128x6144_S128 (.inl rfl) rfl) shapeCasts_S128_S128x1))
    shapeCasts_S128x1_S1x128x1

theorem pay4_eq (i : grid0.Coords) (v3 : Vec F S1x128x6144 .f32) (v18 : Vec F S1x128x1 .f32) :
    k0_pay4 i v3 v18 = addSums (maskedTile i v3) v18 := rfl

theorem pay3_eq (v3 : Vec F S1x128x6144 .f32) (v11 : Vec F S1x128x1 .f32) :
    k0_pay3 v3 v11 = addSums (k0_pay2 v3) v11 := rfl

/-- The mask bit at a lane, at the third tile, says the lane is below 4096. -/
theorem lane_lt_of_bit (l : Fin 6144) (h : IntOp.cmpi .slt (BitVec.ofNat 32 l.val) 4096#32 = 1#1) : l.val < 4096 := by
  simp only [IntOp.cmpi, WordArith.ofBool_eq_one_iff, BitVec.slt_iff_toInt_lt] at h
  rw [toInt_ofNat_of_lt (by have := l.isLt; omega)] at h
  have e : (4096#32 : BitVec 32).toInt = 4096 := by decide
  omega

theorem bit_of_lane_lt (l : Fin 6144) (h : l.val < 4096) : IntOp.cmpi .slt (BitVec.ofNat 32 l.val) 4096#32 = 1#1 := by
  simp only [IntOp.cmpi, WordArith.ofBool_eq_one_iff, BitVec.slt_iff_toInt_lt]
  rw [toInt_ofNat_of_lt (by have := l.isLt; omega)]
  have e : (4096#32 : BitVec 32).toInt = 4096 := by decide
  omega

/-- The masked tile at the third tile, at channel `r` and lane `l`: the tile there below lane 4096, else the zero word. -/
theorem maskedTile_apply (i : grid0.Coords) (hi : (i 1).val = 2) (v3 : Vec F S1x128x6144 .f32) (r : Fin 128) (l : Fin 6144) :
    maskedTile i v3 (ix2 r l)
      = Scalar.select (IntOp.cmpi .slt (BitVec.ofNat 32 l.val) 4096#32) (v3 (ix3 (0 : Fin 1) r l)) (Scalar.ofBits .f32 0x00000000#32) := by
  have hrem : Scalar.subi 16384#32 (Scalar.muli (BitVec.ofNat 32 (i 1).val) 6144#32) = 4096#32 := by rw [hi]; decide
  unfold maskedTile
  rw [hrem]
  have hio : iota .tc S128x6144 32 [1] iota_S128x6144_d1_w32 (ix2 r l) = BitVec.ofNat 32 l.val := by
    show BitVec.ofNat 32 (0 * _ + l.val) = _
    rw [Nat.zero_mul, Nat.zero_add]
  have hp : k0_pay2 v3 (ix2 r l) = v3 (ix3 (0 : Fin 1) r l) := by
    unfold k0_pay2; exact shapeCast_1ab_ab_apply _ _ r l
  show Scalar.select (IntOp.cmpi .slt (iota .tc S128x6144 32 [1] iota_S128x6144_d1_w32 (ix2 r l)) 4096#32) (k0_pay2 v3 (ix2 r l)) _ = _
  rw [hio, hp]
  rfl

/-- Two tiles that agree below lane 4096 have one masked tile at the third tile. -/
theorem maskedTile_congr (i : grid0.Coords) (hi : (i 1).val = 2) (v3 v3' : Vec F S1x128x6144 .f32)
    (h : ∀ (r : Fin 128) (l : Fin 6144), l.val < 4096 → v3 (ix3 (0 : Fin 1) r l) = v3' (ix3 (0 : Fin 1) r l)) :
    maskedTile i v3 = maskedTile i v3' := by
  funext y
  obtain ⟨r, l, rfl⟩ : ∃ (r : Fin 128) (l : Fin 6144), y = ix2 r l := ⟨y 0, y 1, eq_ix2 y⟩
  rw [maskedTile_apply i hi, maskedTile_apply i hi]
  by_cases hb : IntOp.cmpi .slt (BitVec.ofNat 32 l.val) 4096#32 = 1#1
  · rw [h r l (lane_lt_of_bit l hb)]
  · rw [eq_zero_of_ne_one hb, select_zero, select_zero]

end Cert.ReferenceIdeal.Pool

end
-- ==== Proof.RefPool.lean ====
/-
  The reference's first kernel region: the channels' sums, accumulated over a batch element's three tiles.
  The proof data: after the body at a point the input tile's staging buffer holds the fetched positions (filled out, past
  the array's end, by a word nothing reads), and the output's holds the running sums `accAt`, defined by recursion on
  the point: zeros plus the tile's sums at a first tile, the previous point's plus the tile's sums at a second, the
  previous point's plus the masked tile's sums at a third. What the body finds in the output's buffer at a second or
  third tile is what it left at the point before: the block is written back only after a third tile.
  The first two tiles lie inside the array, so whatever filled the buffer before the fetch is gone; the third is
  fetched up to position 4096 only, and the mask zeroes exactly the rest, so there too the words of the overhang do
  not reach the sums. Stated at a parameter `V`, the buffers' contents when the region is entered.
-/
import proofs.«130839_g2000702401841808_pallasbulk_415_13_alg».proof.Proof.Gen.ReferenceIdeal.Launch
import proofs.«130839_g2000702401841808_pallasbulk_415_13_alg».proof.Proof.Gen.ReferenceIdeal.Skeleton
import proofs.«130839_g2000702401841808_pallasbulk_415_13_alg».proof.Proof.Gen.ReferenceIdeal.Points
import proofs.«130839_g2000702401841808_pallasbulk_415_13_alg».proof.Proof.RefPoolCases
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueLayout
import Idealize.ShloMosaic.Lib.Ring
import Idealize.ShloMosaic.Lib.Tactic

set_option maxRecDepth 16384

noncomputable section

namespace Cert.ReferenceIdeal.Pool

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The grid, decided point by point -/

theorem hc1 : ∀ t : Fin cfg0.N, k0_cond1 (grid0.coords t) = 1#1 ↔ t.val % 3 = 0 :=
  (by decide +kernel : ∀ t : Fin grid0.N, k0_cond1 (grid0.coords t) = 1#1 ↔ t.val % 3 = 0)
theorem hc2 : ∀ t : Fin cfg0.N, k0_cond2 (grid0.coords t) = 1#1 ↔ t.val % 3 ≠ 2 :=
  (by decide +kernel : ∀ t : Fin grid0.N, k0_cond2 (grid0.coords t) = 1#1 ↔ t.val % 3 ≠ 2)
theorem hc3 : ∀ t : Fin cfg0.N, k0_cond3 (grid0.coords t) = 1#1 ↔ t.val % 3 = 2 :=
  (by decide +kernel : ∀ t : Fin grid0.N, k0_cond3 (grid0.coords t) = 1#1 ↔ t.val % 3 = 2)
/-- The second grid coordinate is the tile's index. -/
theorem tile_index : ∀ t : Fin cfg0.N, (grid0.coords t 1).val = t.val % 3 :=
  (by decide +kernel : ∀ t : Fin grid0.N, (grid0.coords t 1).val = t.val % 3)
/-- The output is stored at every point. -/
theorem live_pt : ∀ t : Fin cfg0.N, idle0 1 (grid0.coords t) = false :=
  (by decide +kernel : ∀ t : Fin grid0.N, idle0 1 (grid0.coords t) = false)
theorem live_all : ∀ i : cfg0.grid.Coords, cfg0.idle 1 i = false :=
  (by decide +kernel : ∀ i : grid0.Coords, cfg0.idle 1 i = false)
/-- The first two tiles lie inside the array. -/
theorem unclipped : ∀ t : Fin cfg0.N, t.val % 3 ≠ 2 → ∀ a, (cfg0.win 0).clip (cfg0.grid.coords t) a = none :=
  (by decide +kernel : ∀ t : Fin grid0.N, t.val % 3 ≠ 2 → ∀ a, win0_0.clip (grid0.coords t) a = none)
/-- The third is fetched whole in the batch and channel axes and up to position 4096. -/
theorem extents3 : ∀ t : Fin cfg0.N, t.val % 3 = 2 →
    win0_0.xsize (grid0.coords t) 0 = 1 ∧ win0_0.xsize (grid0.coords t) 1 = 128 ∧ win0_0.xsize (grid0.coords t) 2 = 4096 :=
  (by decide +kernel : ∀ t : Fin grid0.N, t.val % 3 = 2 →
    win0_0.xsize (grid0.coords t) 0 = 1 ∧ win0_0.xsize (grid0.coords t) 1 = 128 ∧ win0_0.xsize (grid0.coords t) 2 = 4096)

/-- Two fillings of one fetched block agree wherever the fetch landed. -/
theorem fill_agree {α : Type} (i : grid0.Coords) (d d' : S1x128x6144.Idx → α) (g : (win0_0.xblock i).Idx → α) (j : S1x128x6144.Idx)
    (hm : win0_0.moved i j = true) : win0_0.fill i d g j = win0_0.fill i d' g j := by
  unfold Window.fill; rw [dif_pos hm, dif_pos hm]

/-- At a third tile a position below 4096 is one the fetch lands. -/
theorem moved3 (t : Fin cfg0.N) (h : t.val % 3 = 2) (r : Fin 128) (l : Fin 6144) (hl : l.val < 4096) :
    win0_0.moved (grid0.coords t) (ix3 (0 : Fin 1) r l) = true := by
  obtain ⟨e0, e1, e2⟩ := extents3 t h
  refine (win0_0.moved_iff _ _).mpr fun a => ?_
  match a with
  | ⟨0, _⟩ => exact lt_of_lt_of_eq (Nat.lt_one_iff.mpr rfl) e0.symm
  | ⟨1, _⟩ => exact lt_of_lt_of_eq r.isLt e1.symm
  | ⟨2, _⟩ => exact lt_of_lt_of_eq hl e2.symm

section Data

variable (V : (c : Dev nD) → (b : Ref sig .tc) → Buf (Elt F) ((c : Thread nD τ).loc b))

/-- Window `w`'s block at point `t`, its part inside the array, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The word the proof writes for a staging position past the array's end (nothing reads it). -/
abbrev pad : S1x128x6144.Idx → Elt F .f32 := fun _ => Scalar.ofBits .f32 0#32

/-- The input tile at point `t`: the fetched positions, filled out to the staging tile. -/
def tile (c : Dev nD) (t : Fin cfg0.N) : S1x128x6144.Idx → Elt F .f32 :=
  win0_0.fill (grid0.coords t) pad (iblk V c 0 t)

/-- The running sums after the body at position `n` of the grid. -/
def accAt (c : Dev nD) : (n : ℕ) → n < cfg0.N → Vec F S1x128x1 .f32
  | 0, hn => k0_pay3 (tile V c ⟨0, hn⟩) (k0_pay1 (F := F))
  | n + 1, hn =>
    if (n + 1) % 3 = 0 then k0_pay3 (tile V c ⟨n + 1, hn⟩) (k0_pay1 (F := F))
    else if (n + 1) % 3 = 1 then k0_pay3 (tile V c ⟨n + 1, hn⟩) (accAt c n (Nat.lt_of_succ_lt hn))
    else k0_pay4 (grid0.coords ⟨n + 1, hn⟩) (tile V c ⟨n + 1, hn⟩) (accAt c n (Nat.lt_of_succ_lt hn))

theorem accAt_first (c : Dev nD) (t : Fin cfg0.N) (h : t.val % 3 = 0) :
    accAt V c t.val t.isLt = k0_pay3 (tile V c t) (k0_pay1 (F := F)) := by
  obtain ⟨n, hn⟩ := t
  cases n with
  | zero => exact rfl
  | succ n => exact (if_pos h).trans rfl

theorem accAt_second (c : Dev nD) (t : Fin cfg0.N) (h : t.val % 3 = 1) :
    accAt V c t.val t.isLt = k0_pay3 (tile V c t) (accAt V c (t.val - 1) (Nat.lt_of_le_of_lt (Nat.sub_le _ _) t.isLt)) := by
  obtain ⟨n, hn⟩ := t
  cases n with
  | zero => exact absurd h (by dsimp only; omega)
  | succ n => exact ((if_neg (by dsimp only at h; omega)).trans (if_pos h)).trans rfl

theorem accAt_third (c : Dev nD) (t : Fin cfg0.N) (h : t.val % 3 = 2) :
    accAt V c t.val t.isLt = k0_pay4 (grid0.coords t) (tile V c t) (accAt V c (t.val - 1) (Nat.lt_of_le_of_lt (Nat.sub_le _ _) t.isLt)) := by
  obtain ⟨n, hn⟩ := t
  cases n with
  | zero => exact absurd h (by dsimp only; omega)
  | succ n => exact ((if_neg (by dsimp only at h; omega)).trans (if_neg (by dsimp only at h; omega))).trans rfl

/-- After the body at point `t`: the input tile as fetched, the output's buffer at the running sums. -/
def dat (c : Dev nD) : Dat τ (Elt F) Unit ℕ (UR sig nD τ) ℕ cfg0 c where
  A w := V c (Pipeline.arrRef spec0 w)
  after w t := match w with
    | ⟨0, _⟩ => tile V c t
    | ⟨1, _⟩ => accAt V c t.val t.isLt
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = tile V c t := by dsimp only [dat]
theorem after_1 (c : Dev nD) (t : Fin cfg0.N) : (dat V c).after 1 t = accAt V c t.val t.isLt := by dsimp only [dat]

/-- The input tile is fetched at every point: the fetched positions over whatever the buffer held. -/
theorem before_0 (c : Dev nD) (t : Fin cfg0.N) (d) :
    (dat V c).before 0 t d = win0_0.fill (grid0.coords t) d (iblk V c 0 t) := by
  unfold Dat.before; rw [if_pos (fetch0_0 t)]
  unfold Dat.fetched Dat.blockOf iblk; rw [A_eq V c 0]

/-- At a second or third tile the output's buffer holds what the body left at the point before. -/
theorem before_1 (c : Dev nD) (t : Fin cfg0.N) (h0 : ¬t.val % 3 = 0) (d) :
    (dat V c).before 1 t d = accAt V c (t.val - 1) (Nat.lt_of_le_of_lt (Nat.sub_le _ _) t.isLt) := by
  have hN : t.val < 24 := lt_of_lt_of_eq t.isLt (show cfg0.N = 24 from N_0)
  rw [Dat.before_out_kept _ 1 rfl t (by omega) (Bool.eq_false_iff.mpr fun h => by have := (flush0_1 _).mp h; dsimp only at this; omega)
    live_all (fun _ _ => rfl)]
  dsimp only [dat]

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- The input tile is stated on its part inside the array only. -/
def bodyPost (c : Dev nD) (t : Fin cfg0.N) : sProp 𝕄 :=
  iprop((dat V c).Φ t.succ ∗ (dat V c).owesAt () t.succ
    ∗ (∃ d, owns (c : Thread nD τ) (st0_0 t) fullShare (win0_0.fill (grid0.coords t) d (win0_0.cut (grid0.coords t) ((dat V c).after 0 t))))
    ∗ owns (c : Thread nD τ) (st0_1 t) fullShare ((dat V c).after 1 t))

/-- A first or second tile's sums do not see what filled the buffer before the fetch. -/
theorem fill_whole (c : Dev nD) (t : Fin cfg0.N) (h : t.val % 3 ≠ 2) (d : S1x128x6144.Idx → Elt F .f32) :
    win0_0.fill (grid0.coords t) d (iblk V c 0 t) = tile V c t :=
  Pipeline.fill_of_clip_none (cfg := cfg0) 0 (grid0.coords t) (unclipped t h) d pad (iblk V c 0 t)

/-- Nor do a third tile's masked sums. -/
theorem masked_whole (c : Dev nD) (t : Fin cfg0.N) (h : t.val % 3 = 2) (d : S1x128x6144.Idx → Elt F .f32) :
    maskedTile (grid0.coords t) (win0_0.fill (grid0.coords t) d (iblk V c 0 t)) = maskedTile (grid0.coords t) (tile V c t) :=
  maskedTile_congr (grid0.coords t) ((tile_index t).trans h) _ _ fun r l hl =>
    fill_agree (grid0.coords t) d pad (iblk V c 0 t) _ (moved3 t h r l hl)

set_option maxHeartbeats 1000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).Φ t.succ = (dat V c).Φ t.castSucc from rfl,
    show (dat V c).owesAt () t.succ = (dat V c).owesAt () t.castSucc from rfl,
    after_0, after_1,
    show win0_0.cut (grid0.coords t) (tile V c t) = iblk V c 0 t from win0_0.cut_fill _ _ _]
  have hN : t.val < 24 := lt_of_lt_of_eq t.isLt (show cfg0.N = 24 from N_0)
  rcases (by omega : t.val % 3 = 0 ∨ t.val % 3 = 1 ∨ t.val % 3 = 2) with h | h | h
  · rw [accAt_first V c t h]
    iintro ⟨HΦ, Ho, ⟨%d0, H0⟩, ⟨%d1, H1⟩⟩
    iapply ((runA c (grid0.coords t) _ _ _ _ ((hc1 t).mpr h) ((hc2 t).mpr (by omega)) (fun h' => by have := (hc3 t).mp h'; omega)
      (win0_0.fill (grid0.coords t) d0 (iblk V c 0 t))).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexists d0; iexact H0
    unfold owns; iexists _; isplitr
    swap; · iexact H1
    ipureintro
    rw [View.read_writes_eq_canon _ _ _ (coverA c _ _ _ _ _ _ _ _ _), leftA, fill_whole V c t (by omega)]
  · rw [accAt_second V c t h]
    simp only [before_1 V c t (by omega)]
    iintro ⟨HΦ, Ho, ⟨%d0, H0⟩, ⟨%d1, H1⟩⟩
    iapply ((runB c (grid0.coords t) _ _ _ _ (fun h' => by have := (hc1 t).mp h'; omega) ((hc2 t).mpr (by omega)) (fun h' => by have := (hc3 t).mp h'; omega)
      (win0_0.fill (grid0.coords t) d0 (iblk V c 0 t)) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexists d0; iexact H0
    unfold owns; iexists _; isplitr
    swap; · iexact H1
    ipureintro
    rw [View.read_writes_eq_canon _ _ _ (coverB c _ _ _ _ _ _ _ _ _ _), leftB, fill_whole V c t (by omega)]
  · rw [accAt_third V c t h]
    simp only [before_1 V c t (by omega)]
    iintro ⟨HΦ, Ho, ⟨%d0, H0⟩, ⟨%d1, H1⟩⟩
    iapply ((runC c (grid0.coords t) _ _ _ _ (fun h' => by have := (hc1 t).mp h'; omega) (fun h' => by have := (hc2 t).mp h'; omega) ((hc3 t).mpr h)
      (win0_0.fill (grid0.coords t) d0 (iblk V c 0 t)) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexists d0; iexact H0
    unfold owns; iexists _; isplitr
    swap; · iexact H1
    ipureintro
    rw [View.read_writes_eq_canon _ _ _ (coverC c _ _ _ _ _ _ _ _ _ _), leftC, pay4_eq, pay4_eq, masked_whole V c t h]

theorem body_obligation (c : Dev nD) : BodyObligationLoose (dat (F := F) V c) (defs₀ (F := F)) Variants.none () Set.univ := fun t => by
  rw [bigSep_W0, bigSep_W0]
  simp only [live_pt t]
  exact sound_body V c t

end Data

end Cert.ReferenceIdeal.Pool

end
-- ==== Proof.RefRun.lean ====
/-
  The reference's whole run. @main is five stretches in order: the positions flattened; the pooling region, which
  leaves the channels' sums in one array; the host's gate computation on those sums; the scaling region, which leaves
  the scaled slabs in another array; the positions unflattened. The contents of every buffer between two stretches
  are a fold from the launch memory: a host stretch applies its operations, a region replaces its windows' arrays by
  what its write-backs leave and touches nothing else. Each region is entered from the contents the stretch before
  it left and is left at the contents the next one is entered from; besides the buffers only the generator register
  rides along, and no core owes another anything. The run ends with every buffer that outlives the regions at the
  last fold's contents.
-/
import proofs.«130839_g2000702401841808_pallasbulk_415_13_alg».proof.Proof.RefScale
import proofs.«130839_g2000702401841808_pallasbulk_415_13_alg».proof.Proof.RefPool
import proofs.«130839_g2000702401841808_pallasbulk_415_13_alg».proof.Proof.Gen.ReferenceIdeal.Regions

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the stretches -/

/-- At launch. -/
abbrev B0 : Dev nD → Valuation τ sig (Elt F) := fun c b => (s₀ m ρ).mem ((c : Dev nD), b)
/-- After the positions are flattened: the pooling region's entry. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- After the pooling region: its two arrays at what its write-backs leave, every other buffer as entered. -/
def B2 (c : Dev nD) : Valuation τ sig (Elt F) :=
  Pipeline.withArrays spec0 c (B1 m ρ c) fun w => (Pool.dat (E1 m ρ) c).arrAt w cfg0.N
theorem B2_arr (c : Dev nD) (w : Fin cfg0.W) :
    B2 m ρ c (Proc.devRef .tc (Pipeline.arrRef spec0 w)) = (Pool.dat (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (Pool.dat (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the host's gate computation: the scaling region's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the scaling region. -/
def B4 (c : Dev nD) : Valuation τ sig (Elt F) :=
  Pipeline.withArrays spec1 c (B3 m ρ c) fun w => (Scale.dat (E3 m ρ) c).arrAt w cfg1.N
theorem B4_arr (c : Dev nD) (w : Fin cfg1.W) :
    B4 m ρ c (Proc.devRef .tc (Pipeline.arrRef spec1 w)) = (Scale.dat (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (Scale.dat (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the positions are unflattened: the end. -/
abbrev B5 : Dev nD → Valuation τ sig (Elt F) := fun c => StableHlo.after hostOps2 (B4 m ρ c)

/-! ## The proof data family and what rides beside the buffers -/

/-- Each region's proof data at its entry contents. -/
def pdats : (p : Fin 2) → (c : Dev nD) → Dat τ (Elt F) Unit ℕ (UR sig nD τ) ℕ (Pipeline.pin (pcfgs (F := F)) adm p) c
  | ⟨0, _⟩ => fun c => Pool.dat (E1 m ρ) c
  | ⟨1, _⟩ => fun c => Scale.dat (E3 m ρ) c
abbrev 𝒱₀ : Variants := Variants.none
abbrev L : GSem nD τ sig → Finset Unit := fun _ => ∅
abbrev lv : GSem nD τ sig → Unit → ℕ := fun _ _ => 0
/-- The generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (B5 m ρ c) ∗ ∃ r, prngReg c r)

/-! ## The regions as segments -/

set_option backward.isDefEq.respectTransparency.types false in
/-- The pooling region: entered from every buffer at `B1`, left at `B2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := Pool.body_obligation (E1 m ρ) c
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling region: entered from every buffer at `B3`, left at `B4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := Scale.body_obligation (E3 m ρ) c
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and every
    buffer that outlives the regions ends at the last fold's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = B5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (B5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c b hb => h c _ (mem_uc b hb))

end Cert.ReferenceIdeal.Run

end
-- ==== Proof.RefScaleValue.lean ====
/-
  What the reference's second kernel region leaves in its result array: every position of every channel multiplied by
  the channel's entry of the gate column, as the region finds the slabs and the column. Point (n, k) of the grid writes
  back tile k of batch element n — positions 6144·k up to the array's end at 16384 — and what it writes is the
  product read through that tile; the 24 tiles cover the array, position (n, c, s) lying in the tile of point
  3·n + s / 6144.
-/
import proofs.«130839_g2000702401841808_pallasbulk_415_13_alg».proof.Proof.RefScale

set_option maxRecDepth 16384

noncomputable section

namespace Cert.ReferenceIdeal.Scale

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat Cfg Window)

/-- Every position of a channel times the channel's entry of a column. -/
def scaledBy (x : S8x128x16384.Idx → EReal) (g : S8x128x1.Idx → EReal) : S8x128x16384.Idx → EReal :=
  fun i => x i * g (ix3 (i 0) (i 1) (0 : Fin 1))

/-- The index maps, decided over the grid: the input tile moves with the output tile, the gate column's block sits at
    the batch element, and the output tile of point `t` is tile `t % 3` of batch element `t / 3`. -/
theorem idx_facts : ∀ t : Fin cfg1.N,
    win1_0.index t 0 = win1_2.index t 0 ∧ win1_0.index t 1 = win1_2.index t 1 ∧ win1_0.index t 2 = win1_2.index t 2
    ∧ win1_1.index t 0 = win1_2.index t 0 ∧ win1_1.index t 1 = 0 ∧ win1_1.index t 2 = 0 ∧ win1_2.index t 1 = 0
    ∧ win1_2.index t 0 = t.val / 3 ∧ win1_2.index t 2 = t.val % 3 :=
  (by decide +kernel : ∀ t : Fin grid1.N, _)

/-- The part of the output tile inside the array: whole but for the third tile, cut at 4096 positions. -/
theorem extents : ∀ t : Fin cfg1.N, win1_2.xsize (grid1.coords t) 0 = 1 ∧ win1_2.xsize (grid1.coords t) 1 = 128
    ∧ win1_2.xsize (grid1.coords t) 2 = (if t.val % 3 = 2 then 4096 else 6144) :=
  (by decide +kernel : ∀ t : Fin grid1.N, _)

section

variable (V : (c : Dev nD) → (b : Ref sig .tc) → Buf (Elt Ideal) ((c : Thread nD τ).loc b))

/-- What point `t` writes back is tile `t` of the product. -/
theorem flushed_eq (c : Dev nD) (t : Fin cfg1.N) :
    (dat V c).flushed 2 t = ((cfg1.win 2).blk t).view.read (Elt Ideal) (scaledBy (V c main_v0) (V c main_v17)) := by
  show (cfg1.win 2).cut (grid1.coords t) ((dat V c).after 2 t) = _
  rw [after_2]
  obtain ⟨e0, e1, e2, e3, e4, e5, e6, -, -⟩ := idx_facts t
  funext j
  obtain ⟨u, r, l, hy⟩ : ∃ (u : Fin 1) (r : Fin 128) (l : Fin 6144), win1_2.xinj (grid1.coords t) j = ix3 u r l := ⟨_, _, _, eq_ix3 _⟩
  have hu : u = (0 : Fin 1) := Subsingleton.elim _ _
  subst hu
  have hr : r.val = (j 1).val := (congrArg (fun f : S1x128x6144.Idx => (f 1).val) hy).symm
  have hl : l.val = (j 2).val := (congrArg (fun f : S1x128x6144.Idx => (f 2).val) hy).symm
  have hj0 : (j 0).val = 0 := by
    have h := (congrArg (fun f : S1x128x6144.Idx => (f 0).val) hy); exact h
  show k1_pay1 (tile V c t) (iblk V c 1 t) (win1_2.xinj (grid1.coords t) j)
      = scaledBy (V c main_v0) (V c main_v17) (((cfg1.win 2).blk t).view.emb j)
  rw [hy, pay_apply]
  have ht : tile V c t (ix3 (0 : Fin 1) r l) = (V c main_v0 : S8x128x16384.Idx → EReal) (((cfg1.win 2).blk t).view.emb j) := by
    rw [← hy]
    refine (win1_0.fill_xinj (grid1.coords t) pad (iblk V c 0 t) j).trans ?_
    show (V c main_v0 : S8x128x16384.Idx → EReal) (((cfg1.win 0).blk t).view.emb j) = _
    refine congrArg _ ?_
    funext a; apply Fin.ext
    match a with
    | ⟨0, _⟩ => show win1_0.index t 0 * 1 + 1 * (j 0).val = win1_2.index t 0 * 1 + 1 * (j 0).val; omega
    | ⟨1, _⟩ => show win1_0.index t 1 * 128 + 1 * (j 1).val = win1_2.index t 1 * 128 + 1 * (j 1).val; omega
    | ⟨2, _⟩ => show win1_0.index t 2 * 6144 + 1 * (j 2).val = win1_2.index t 2 * 6144 + 1 * (j 2).val; omega
  have hc : iblk V c 1 t (ix3 (0 : Fin 1) r (0 : Fin 1))
      = (V c main_v17 : S8x128x1.Idx → EReal) (ix3 ((((cfg1.win 2).blk t).view.emb j) 0) ((((cfg1.win 2).blk t).view.emb j) 1) (0 : Fin 1)) := by
    show (V c main_v17 : S8x128x1.Idx → EReal) (((cfg1.win 1).blk t).view.emb (ix3 (0 : Fin 1) r (0 : Fin 1))) = _
    refine congrArg _ ?_
    funext a; apply Fin.ext
    match a with
    | ⟨0, _⟩ => show win1_1.index t 0 * 1 + 1 * 0 = win1_2.index t 0 * 1 + 1 * (j 0).val; omega
    | ⟨1, _⟩ => show win1_1.index t 1 * 128 + 1 * r.val = win1_2.index t 1 * 128 + 1 * (j 1).val; omega
    | ⟨2, _⟩ => show win1_1.index t 2 * 1 + 1 * 0 = 0; omega
  rw [ht, hc]
  rfl

/-- A position of the array is in point `t`'s tile iff each coordinate is in the tile's range inside the array. -/
theorem mem_blk (t : Fin cfg1.N) (i : S8x128x16384.Idx) :
    i ∈ ((cfg1.win 2).blk t).view.set ↔ ∀ a : Fin 3, win1_2.index t a * S1x128x6144.size a ≤ (i a).val
      ∧ (i a).val < win1_2.index t a * S1x128x6144.size a + win1_2.xsize (grid1.coords t) a := by
  show i ∈ ((View.whole main_v18).slice (win1_2.rect t)).set ↔ _
  rw [View.set_slice_whole, Rect.mem_set_unit]
  exact Iff.rfl

/-- Every position is in some point's tile. -/
theorem cover (i : S8x128x16384.Idx) : ∃ t : Fin cfg1.N, (cfg1.win 2).flush t = true ∧ i ∈ ((cfg1.win 2).blk t).view.set := by
  have h0 : (i 0).val < 8 := (i 0).isLt
  have h1 : (i 1).val < 128 := (i 1).isLt
  have h2 : (i 2).val < 16384 := (i 2).isLt
  have hN : cfg1.N = 24 := N_1
  obtain ⟨t, ht⟩ : ∃ t : Fin cfg1.N, t.val = 3 * (i 0).val + (i 2).val / 6144 := ⟨⟨3 * (i 0).val + (i 2).val / 6144, by omega⟩, rfl⟩
  refine ⟨t, flush1_2 t, ?_⟩
  rw [mem_blk]
  obtain ⟨-, -, -, -, -, -, q1, q0, q2⟩ := idx_facts t
  obtain ⟨x0, x1, x2⟩ := extents t
  intro a
  match a with
  | ⟨0, _⟩ =>
    show win1_2.index t 0 * 1 ≤ (i 0).val ∧ (i 0).val < win1_2.index t 0 * 1 + win1_2.xsize (grid1.coords t) 0
    rw [q0, x0]; omega
  | ⟨1, _⟩ =>
    show win1_2.index t 1 * 128 ≤ (i 1).val ∧ (i 1).val < win1_2.index t 1 * 128 + win1_2.xsize (grid1.coords t) 1
    rw [q1, x1]; omega
  | ⟨2, _⟩ =>
    show win1_2.index t 2 * 6144 ≤ (i 2).val ∧ (i 2).val < win1_2.index t 2 * 6144 + win1_2.xsize (grid1.coords t) 2
    rw [q2, x2]; split <;> omega

/-- The result array after the region: the product, everywhere. -/
theorem final (c : Dev nD) : (dat V c).arrAt 2 cfg1.N = scaledBy (V c main_v0) (V c main_v17) :=
  (dat V c).arrAt_eq_of_cover 2 (scaledBy (V c main_v0) (V c main_v17)) (fun t _ => flushed_eq V c t) (cover)

end

end Cert.ReferenceIdeal.Scale

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibSegmentSum.lean ====
/-
  Sums over an initial segment of `Fin N`, for accumulations that proceed block by block.

  `segSum g n` is the sum of `g` over the indices below `n`.  The empty segment sums to zero (`segSum_zero`), the
  whole segment is the full sum (`segSum_all`), and a segment extended by a block of `W` indices is the segment's sum
  plus the block's (`segSum_add`): an accumulator that starts at zero and adds one block's sum per step holds, after
  the step that adds the block starting at `a`, the segment sum up to `a + W`, and after the last block the full sum.
  Stated in any commutative additive monoid, so it applies to the extended reals, which are not a group.
-/
import Mathlib.Algebra.BigOperators.Fin

open scoped BigOperators

namespace SegmentSum

variable {M : Type*} [AddCommMonoid M] {N : ℕ}

/-- The sum of `g` over the indices of `Fin N` below `n` (indices from `N` on contribute nothing). -/
def segSum (g : Fin N → M) (n : ℕ) : M :=
  ∑ r ∈ Finset.range n, if h : r < N then g ⟨r, h⟩ else 0

/-- The empty segment sums to zero. -/
theorem segSum_zero (g : Fin N → M) : segSum g 0 = 0 := by
  unfold segSum; rw [Finset.range_zero, Finset.sum_empty]

/-- The whole segment is the full sum. -/
theorem segSum_all (g : Fin N → M) : segSum g N = ∑ r : Fin N, g r := by
  unfold segSum
  rw [Finset.sum_range]
  exact Finset.sum_congr rfl fun i _ => by rw [dif_pos i.isLt]

/-- A segment extended by a block of `W` indices: the segment's sum plus the block's. -/
theorem segSum_add (g : Fin N → M) (a W : ℕ) (h : a + W ≤ N) :
    segSum g (a + W) = segSum g a + ∑ p : Fin W, g ⟨a + p.val, by have := p.isLt; omega⟩ := by
  unfold segSum
  rw [Finset.sum_range_add]
  refine congrArg _ ?_
  rw [Finset.sum_range]
  exact Finset.sum_congr rfl fun p _ => by rw [dif_pos (by have := p.isLt; omega)]

end SegmentSum
-- ==== Proof.RefPoolValue.lean ====
/-
  What the reference's first kernel region leaves in its result array, at exact values: for every batch element and
  channel, the sum of the channel's 16384 positions. A batch element's three tiles add, in turn, the sums of positions
  [0, 6144), of [6144, 12288) and — the third tile masked from its position 4096 on — of [12288, 16384) to an accumulator
  started at zero; sums over an initial segment of the positions, extended block by block, put the three together. The
  block of the result is written back after the third tile, and the eight blocks cover the array.
-/
import proofs.«130839_g2000702401841808_pallasbulk_415_13_alg».proof.Proof.RefPool
import proofs.«130839_g2000702401841808_pallasbulk_415_13_alg».proof.Proof.Spec
import proofs.«130839_g2000702401841808_pallasbulk_415_13_alg».proof.Proof.LibColumnCast
import proofs.«130839_g2000702401841808_pallasbulk_415_13_alg».proof.Proof.LibSegmentSum
import Idealize.ShloMosaic.PureOps.Ideal.Laws

set_option maxRecDepth 16384

noncomputable section

open scoped BigOperators

namespace Cert.ReferenceIdeal.Pool

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat Cfg Window)

/-! ## Sums -/

/-- A sum over 6144 lanes of a family that vanishes from lane 4096 on is the sum over the first 4096 lanes. -/
theorem sum_masked {M : Type*} [AddCommMonoid M] (f : ℕ → M) :
    ∑ l : Fin 6144, (if l.val < 4096 then f l.val else 0) = ∑ p : Fin 4096, f p.val := by
  rw [Fin.sum_univ_eq_sum_range (fun l => if l < 4096 then f l else 0) 6144, Fin.sum_univ_eq_sum_range f 4096,
    show (6144 : ℕ) = 4096 + 2048 from rfl, Finset.sum_range_add,
    Finset.sum_congr rfl (fun l hl => if_pos (Finset.mem_range.mp hl)),
    Finset.sum_eq_zero (fun l _ => if_neg (by omega)), add_zero]

/-- The positions' sum, three blocks at a time. -/
theorem sum_three_blocks {M : Type*} [AddCommMonoid M] (g : Fin 16384 → M) :
    ((0 + ∑ l : Fin 6144, g ⟨0 + l.val, by have := l.isLt; omega⟩) + ∑ l : Fin 6144, g ⟨6144 + l.val, by have := l.isLt; omega⟩)
        + ∑ p : Fin 4096, g ⟨12288 + p.val, by have := p.isLt; omega⟩
      = ∑ s : Fin 16384, g s := by
  have e1 : SegmentSum.segSum g 6144 = 0 + ∑ l : Fin 6144, g ⟨0 + l.val, by have := l.isLt; omega⟩ := by
    have h := SegmentSum.segSum_add g 0 6144 (by omega)
    rw [SegmentSum.segSum_zero] at h
    exact h
  have e2 : SegmentSum.segSum g 12288 = SegmentSum.segSum g 6144 + ∑ l : Fin 6144, g ⟨6144 + l.val, by have := l.isLt; omega⟩ :=
    SegmentSum.segSum_add g 6144 6144 (by omega)
  have e3 : SegmentSum.segSum g 16384 = SegmentSum.segSum g 12288 + ∑ p : Fin 4096, g ⟨12288 + p.val, by have := p.isLt; omega⟩ :=
    SegmentSum.segSum_add g 12288 4096 (by omega)
  rw [← e1, ← e2, ← e3]
  exact SegmentSum.segSum_all g

/-! ## The payloads at a channel -/

/-- A matrix's sums over the positions added to a column: at channel `r`, the column there plus the row's sum. -/
theorem addSums_apply (mt : FVec Ideal S128x6144 .f32) (v : Vec Ideal S1x128x1 .f32) (u : Fin 1) (r : Fin 128) (w : Fin 1) :
    addSums mt v (ix3 u r w) = v (ix3 (0 : Fin 1) r w) + ∑ l : Fin 6144, mt (ix2 r l) := by
  unfold addSums
  refine (shapeCast_ab_1ab_apply _ _ u r w).trans ?_
  show (shapeCast S128x1 v _ (ix2 r w) : EReal)
      + shapeCast S128x1 (multiReduction .add [1] S128 mt 0x00000000#32 reduces_S128x6144_S128 (.inl rfl) rfl) _ (ix2 r w) = _
  rw [shapeCast_1ab_ab_apply, Cert.LibColumnCast.shapeCast_a_a1_apply]
  refine congrArg _ ?_
  refine (Ideal.multiReduction_add_single mt _ reduces_S128x6144_S128 (.inl rfl) rfl (ix1 r)).trans ?_
  show ∑ l : Fin 6144, mt (reduces_S128x6144_S128.lift (ix1 r) l) = ∑ l : Fin 6144, mt (ix2 r l)
  exact Finset.sum_congr rfl fun l _ => congrArg mt (funext fun a => by match a with | ⟨0, _⟩ => rfl | ⟨1, _⟩ => rfl)

/-- The zeros a first tile stores. -/
theorem pay1_apply (y : S1x128x1.Idx) : (k0_pay1 (F := Ideal)) y = 0 := by
  show Ideal.ofBits .f32 0x00000000#32 = 0
  exact Ideal.ofBits_zero_f32

/-- The tile as a matrix of channels by positions. -/
theorem pay2_apply (v3 : Vec Ideal S1x128x6144 .f32) (r : Fin 128) (l : Fin 6144) :
    k0_pay2 v3 (ix2 r l) = v3 (ix3 (0 : Fin 1) r l) := by
  unfold k0_pay2; exact shapeCast_1ab_ab_apply _ _ r l

/-! ## The grid and the tile's positions -/

theorem idx_facts : ∀ t : Fin cfg0.N, win0_0.index t 0 = t.val / 3 ∧ win0_0.index t 1 = 0 ∧ win0_0.index t 2 = t.val % 3
    ∧ win0_1.index t 0 = t.val / 3 ∧ win0_1.index t 1 = 0 ∧ win0_1.index t 2 = 0 :=
  (by decide +kernel : ∀ t : Fin grid0.N, _)

/-- The part of the input tile inside the array: whole but for the third tile, cut at 4096 positions. -/
theorem extents : ∀ t : Fin cfg0.N, win0_0.xsize (grid0.coords t) 0 = 1 ∧ win0_0.xsize (grid0.coords t) 1 = 128
    ∧ win0_0.xsize (grid0.coords t) 2 = (if t.val % 3 = 2 then 4096 else 6144) :=
  (by decide +kernel : ∀ t : Fin grid0.N, _)

theorem moved_of (t : Fin cfg0.N) (r : Fin 128) (l : Fin 6144) (hl : l.val < (if t.val % 3 = 2 then 4096 else 6144)) :
    win0_0.moved (grid0.coords t) (ix3 (0 : Fin 1) r l) = true := by
  obtain ⟨e0, e1, e2⟩ := extents t
  refine (win0_0.moved_iff _ _).mpr fun a => ?_
  match a with
  | ⟨0, _⟩ => exact lt_of_lt_of_eq (Nat.lt_one_iff.mpr rfl) e0.symm
  | ⟨1, _⟩ => exact lt_of_lt_of_eq r.isLt e1.symm
  | ⟨2, _⟩ => exact lt_of_lt_of_eq hl e2.symm

section

variable (V : (c : Dev nD) → (b : Ref sig .tc) → Buf (Elt Ideal) ((c : Thread nD τ).loc b))

/-- The slabs as the region finds them. -/
def slabs (c : Dev nD) : S8x128x16384.Idx → EReal := V c main_v0

/-- The staging tile at a position the fetch landed: the slabs' entry at the batch element, channel and position. -/
theorem tile_apply (c : Dev nD) (t : Fin cfg0.N) (r : Fin 128) (l : Fin 6144)
    (hl : l.val < (if t.val % 3 = 2 then 4096 else 6144)) (n : Fin 8) (s : Fin 16384)
    (hn : n.val = t.val / 3) (hs : s.val = (t.val % 3) * 6144 + l.val) :
    tile V c t (ix3 (0 : Fin 1) r l) = slabs V c (ix3 n r s) := by
  obtain ⟨q0, q1, q2, -, -, -⟩ := idx_facts t
  unfold tile Window.fill slabs
  rw [dif_pos (moved_of t r l hl)]
  show (V c main_v0 : S8x128x16384.Idx → EReal) (((cfg0.win 0).blk t).view.emb _) = _
  refine congrArg _ ?_
  funext a; apply Fin.ext
  match a with
  | ⟨0, _⟩ => show win0_0.index t 0 * 1 + 1 * 0 = n.val; omega
  | ⟨1, _⟩ => show win0_0.index t 1 * 128 + 1 * r.val = r.val; omega
  | ⟨2, _⟩ => show win0_0.index t 2 * 6144 + 1 * l.val = s.val; omega

theorem accAt_congr (c : Dev nD) (n n' : ℕ) (h : n = n') (hn : n < cfg0.N) (hn' : n' < cfg0.N) :
    accAt V c n hn = accAt V c n' hn' := by subst h; rfl

/-- After a batch element's third tile the accumulator holds, at every channel, the sum of the channel's positions. -/
theorem accAt_third_apply (c : Dev nD) (t : Fin cfg0.N) (h : t.val % 3 = 2) (n : Fin 8) (hn : n.val = t.val / 3) (r : Fin 128) (u w : Fin 1) :
    accAt V c t.val t.isLt (ix3 u r w) = Cert.SE.rowSum (slabs V c) n r := by
  have hN : cfg0.N = 24 := N_0
  have hu : u = (0 : Fin 1) := Subsingleton.elim _ _
  have hw : w = (0 : Fin 1) := Subsingleton.elim _ _
  subst hu hw
  have ht : t.val < 24 := lt_of_lt_of_eq t.isLt hN
  -- the two points before
  obtain ⟨t1, ht1⟩ : ∃ t1 : Fin cfg0.N, t1.val = t.val - 1 := ⟨⟨t.val - 1, by omega⟩, rfl⟩
  obtain ⟨t0, ht0⟩ : ∃ t0 : Fin cfg0.N, t0.val = t.val - 2 := ⟨⟨t.val - 2, by omega⟩, rfl⟩
  have e2 : accAt V c t.val t.isLt = k0_pay4 (grid0.coords t) (tile V c t) (accAt V c t1.val t1.isLt) :=
    (accAt_third V c t h).trans (congrArg _ (accAt_congr V c _ _ ht1.symm _ _))
  have e1 : accAt V c t1.val t1.isLt = k0_pay3 (tile V c t1) (accAt V c t0.val t0.isLt) :=
    (accAt_second V c t1 (by omega)).trans (congrArg _ (accAt_congr V c _ _ (by omega) _ _))
  have e0 : accAt V c t0.val t0.isLt = k0_pay3 (tile V c t0) (k0_pay1 (F := Ideal)) := accAt_first V c t0 (by omega)
  rw [e2, pay4_eq, addSums_apply, e1, pay3_eq, addSums_apply, e0, pay3_eq, addSums_apply, pay1_apply]
  -- the three rows' sums
  have s0 : ∑ l : Fin 6144, k0_pay2 (tile V c t0) (ix2 r l)
      = ∑ l : Fin 6144, slabs V c (ix3 n r ⟨0 + l.val, by have := l.isLt; omega⟩) :=
    Finset.sum_congr rfl fun l _ => by
      rw [pay2_apply]
      exact tile_apply V c t0 r l (by have := l.isLt; split <;> omega) n _ (by omega) (by show 0 + l.val = _; omega)
  have s1 : ∑ l : Fin 6144, k0_pay2 (tile V c t1) (ix2 r l)
      = ∑ l : Fin 6144, slabs V c (ix3 n r ⟨6144 + l.val, by have := l.isLt; omega⟩) :=
    Finset.sum_congr rfl fun l _ => by
      rw [pay2_apply]
      exact tile_apply V c t1 r l (by have := l.isLt; split <;> omega) n _ (by omega) (by show 6144 + l.val = _; omega)
  have s2 : ∑ l : Fin 6144, maskedTile (grid0.coords t) (tile V c t) (ix2 r l)
      = ∑ p : Fin 4096, slabs V c (ix3 n r ⟨12288 + p.val, by have := p.isLt; omega⟩) := by
    let f : ℕ → EReal := fun p => if hp : p < 4096 then slabs V c (ix3 n r ⟨12288 + p, by omega⟩) else 0
    have a : ∑ l : Fin 6144, maskedTile (grid0.coords t) (tile V c t) (ix2 r l)
        = ∑ l : Fin 6144, (if l.val < 4096 then f l.val else 0) :=
      Finset.sum_congr rfl fun l _ => by
        rw [maskedTile_apply (grid0.coords t) ((tile_index t).trans h)]
        by_cases hl : l.val < 4096
        · rw [bit_of_lane_lt l hl, select_one, if_pos hl]
          show _ = (if hp : l.val < 4096 then slabs V c (ix3 n r ⟨12288 + l.val, by omega⟩) else 0)
          rw [dif_pos hl]
          exact tile_apply V c t r l (by rw [if_pos h]; exact hl) n _ hn (by show 12288 + l.val = _; omega)
        · have hb : ¬IntOp.cmpi .slt (BitVec.ofNat 32 l.val) 4096#32 = 1#1 := fun hb => hl (lane_lt_of_bit l hb)
          rw [eq_zero_of_ne_one hb, select_zero, if_neg hl]
          exact Ideal.ofBits_zero_f32
    have b : ∑ p : Fin 4096, f p.val = ∑ p : Fin 4096, slabs V c (ix3 n r ⟨12288 + p.val, by have := p.isLt; omega⟩) :=
      Finset.sum_congr rfl fun p _ => dif_pos p.isLt
    exact a.trans ((sum_masked f).trans b)
  rw [s0, s1, s2]
  unfold Cert.SE.rowSum
  exact sum_three_blocks fun s => slabs V c (ix3 n r s)

attribute [local irreducible] Cert.SE.rowSum accAt

/-- The channels' sums as the array the region leaves. -/
def sums (x : S8x128x16384.Idx → EReal) : S8x128x1.Idx → EReal := fun i => Cert.SE.rowSum x (i 0) (i 1)

/-- What a third tile's point writes back is its batch element's block of the sums. -/
theorem flushed_eq (c : Dev nD) (t : Fin cfg0.N) (hf : (cfg0.win 1).flush t = true) :
    (dat V c).flushed 1 t = ((cfg0.win 1).blk t).view.read (Elt Ideal) (sums (slabs V c)) := by
  have h : t.val % 3 = 2 := (flush0_1 t).mp hf
  have hN : cfg0.N = 24 := N_0
  have ht : t.val < 24 := lt_of_lt_of_eq t.isLt hN
  obtain ⟨-, -, -, q0, q1, q2⟩ := idx_facts t
  show (cfg0.win 1).cut (grid0.coords t) ((dat V c).after 1 t) = _
  rw [after_1]
  funext j
  obtain ⟨u, r, w, hy⟩ : ∃ (u : Fin 1) (r : Fin 128) (w : Fin 1), win0_1.xinj (grid0.coords t) j = ix3 u r w := ⟨_, _, _, eq_ix3 _⟩
  have hr : r.val = (j 1).val := (congrArg (fun f : S1x128x1.Idx => (f 1).val) hy).symm
  show accAt V c t.val t.isLt (win0_1.xinj (grid0.coords t) j) = sums (slabs V c) (((cfg0.win 1).blk t).view.emb j)
  rw [hy, accAt_third_apply V c t h ⟨t.val / 3, by omega⟩ rfl r u w]
  show Cert.SE.rowSum (slabs V c) _ r = Cert.SE.rowSum (slabs V c) ((((cfg0.win 1).blk t).view.emb j) 0) ((((cfg0.win 1).blk t).view.emb j) 1)
  have h0 : (⟨t.val / 3, by omega⟩ : Fin 8) = (((cfg0.win 1).blk t).view.emb j) 0 := by
    apply Fin.ext
    show t.val / 3 = win0_1.index t 0 * 1 + 1 * (j 0).val
    have := (j 0).isLt
    have hj : (j 0).val < 1 := this
    omega
  have h1 : r = (((cfg0.win 1).blk t).view.emb j) 1 := by
    apply Fin.ext
    show r.val = win0_1.index t 1 * 128 + 1 * (j 1).val
    omega
  rw [← h0, ← h1]

theorem mem_blk (t : Fin cfg0.N) (i : S8x128x1.Idx) :
    i ∈ ((cfg0.win 1).blk t).view.set ↔ ∀ a : Fin 3, win0_1.index t a * S1x128x1.size a ≤ (i a).val
      ∧ (i a).val < win0_1.index t a * S1x128x1.size a + S1x128x1.size a := by
  show i ∈ ((View.whole main_v1).slice (win0_1.rect t)).set ↔ _
  rw [View.set_slice_whole, Rect.mem_set_unit]
  exact Iff.rfl

/-- Every entry of the sums is in the block of its batch element's third tile. -/
theorem cover (i : S8x128x1.Idx) : ∃ t : Fin cfg0.N, (cfg0.win 1).flush t = true ∧ i ∈ ((cfg0.win 1).blk t).view.set := by
  have h0 : (i 0).val < 8 := (i 0).isLt
  have h1 : (i 1).val < 128 := (i 1).isLt
  have h2 : (i 2).val < 1 := (i 2).isLt
  have hN : cfg0.N = 24 := N_0
  obtain ⟨t, ht⟩ : ∃ t : Fin cfg0.N, t.val = 3 * (i 0).val + 2 := ⟨⟨3 * (i 0).val + 2, by omega⟩, rfl⟩
  refine ⟨t, (flush0_1 t).mpr (by omega), ?_⟩
  rw [mem_blk]
  obtain ⟨-, -, -, q0, q1, q2⟩ := idx_facts t
  intro a
  match a with
  | ⟨0, _⟩ =>
    show win0_1.index t 0 * 1 ≤ (i 0).val ∧ (i 0).val < win0_1.index t 0 * 1 + 1
    rw [q0]; omega
  | ⟨1, _⟩ =>
    show win0_1.index t 1 * 128 ≤ (i 1).val ∧ (i 1).val < win0_1.index t 1 * 128 + 128
    rw [q1]; omega
  | ⟨2, _⟩ =>
    show win0_1.index t 2 * 1 ≤ (i 2).val ∧ (i 2).val < win0_1.index t 2 * 1 + 1
    rw [q2]; omega

/-- The result array after the region: the channels' sums. -/
theorem final (c : Dev nD) : (dat V c).arrAt 1 cfg0.N = sums (slabs V c) :=
  (dat V c).arrAt_eq_of_cover 1 (sums (slabs V c)) (fun t hf => flushed_eq V c t hf) (cover)

end

end Cert.ReferenceIdeal.Pool

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.RefHostGate.lean ====
/-
  The gate of a channel from the channels' sums, as the chain of whole-array operations a host program applies,
  read at an index.

  The chain: the sums [8, 128, 1] viewed [8, 128]; every entry times the word 2⁻¹⁴; a plain product with the first
  weights transposed, [8, 128] by [128, 16]; a maximum with zero; a plain product with the second weights transposed,
  [8, 16] by [16, 128]; then 1 / (1 + exp (−z)) entry by entry, which on the extended reals is the logistic function by
  definition; the result viewed [8, 128, 1]. Each operation is read at an index: a view with a trailing unit axis added
  or dropped keeps the row-major position, a transposed matrix swaps its two coordinates, a plain product is the sum
  over the contracted coordinate of the products, the pointwise operations act entry by entry, and a scalar broadcast
  reads the scalar. The two sums come out in the order the product states them (left operand times right operand);
  the second is turned over by commutativity of the product of extended reals so that the weight stands first.
-/
import proofs.«130839_g2000702401841808_pallasbulk_415_13_alg».proof.Proof.Spec
import proofs.«130839_g2000702401841808_pallasbulk_415_13_alg».proof.Proof.LibPlainDot
import proofs.«130839_g2000702401841808_pallasbulk_415_13_alg».proof.Proof.Gen.ReferenceIdeal
import Idealize.ShloMosaic.Lib.IdealHost
import Idealize.ShloMosaic.Lib.ValueLayout

noncomputable section

open scoped BigOperators

namespace Cert.ReferenceIdeal.SEHost

open Idealize.ShloMosaic Idealize.ShloMosaic.ValueIdx Cert.ReferenceIdeal

/-! ## Two views: a trailing unit axis dropped, and added -/

/-- An `[a, b, 1]` array viewed `[a, b]` reads, at `(i, j)`, the operand at `(i, j, 0)`. -/
theorem shapeCast_ab1_ab_apply {a b : ℕ} {α : Type} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` array viewed `[a, b, 1]` reads, at `(i, j, u)`, the operand at `(i, j)`, whatever the unit coordinate. -/
theorem shapeCast_ab_ab1_apply {a b : ℕ} {α : Type} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## The stages, each at an index -/

/-- The means: the sums' view times the broadcast word, at `(n, c)`. -/
theorem means_apply (x1 : FVec Ideal S8x128x1 .f32) (h : S8x128x1.ShapeCasts S8x128) (hb : S_.BroadcastsInDim S8x128 ![])
    (w : BitVec 32) (n : Fin 8) (c : Fin 128) :
    mulf (shapeCast S8x128 x1 h) (broadcastInDim S8x128 ![] hb (constant (F := Ideal) S_ .f32 w)) (ix2 n c)
      = x1 (ix3 n c (0 : Fin 1)) * Ideal.ofBits .f32 w := by
  rw [mulf_apply, shapeCast_ab1_ab_apply, broadcastInDim_scalar_apply, constant_apply]

/-- The first layer before the clamp: the means against the transposed first weights, at `(n, j)`. -/
theorem layer1_apply (A : FVec Ideal S8x128 .f32) (w1 : FVec Ideal S16x128 .f32) (h : S16x128.Transposes [1, 0] S128x16)
    (n : Fin 8) (j : Fin 16) :
    Host.dotGeneral dot_S8x128_S128x16_S8x16_1_0_0_1_n_n none A (transpose S128x16 [1, 0] w1 h) (ix2 n j)
      = ∑ c : Fin 128, A (ix2 n c) * w1 (ix2 j c) := by
  refine (hostDotGeneral_plain_apply (m := 8) (k := 128) (n := 16) none A (transpose S128x16 [1, 0] w1 h) n j).trans ?_
  exact Finset.sum_congr rfl fun c _ => by rw [transpose_ix2_apply]

/-- The clamp below at zero, at an index: the maximum with the broadcast zero word. -/
theorem relu_apply (A : FVec Ideal S8x16 .f32) (hb : S_.BroadcastsInDim S8x16 ![]) (i : S8x16.Idx) :
    maximumf A (broadcastInDim S8x16 ![] hb (constant (F := Ideal) S_ .f32 0x00000000#32)) i = max (A i) 0 := by
  rw [maximumf_apply, broadcastInDim_scalar_apply, constant_apply, Ideal.ofBits_zero_f32]

/-- The second layer: the hidden units against the transposed second weights, at `(n, c)`, the weight first. -/
theorem layer2_apply (H : FVec Ideal S8x16 .f32) (w2 : FVec Ideal S128x16 .f32) (h : S128x16.Transposes [1, 0] S16x128)
    (n : Fin 8) (c : Fin 128) :
    Host.dotGeneral dot_S8x16_S16x128_S8x128_1_0_0_1_n_n none H (transpose S16x128 [1, 0] w2 h) (ix2 n c)
      = ∑ j : Fin 16, w2 (ix2 c j) * H (ix2 n j) := by
  refine (hostDotGeneral_plain_apply (m := 8) (k := 16) (n := 128) none H (transpose S16x128 [1, 0] w2 h) n c).trans ?_
  exact Finset.sum_congr rfl fun j _ => by rw [transpose_ix2_apply, mul_comm]

/-- One over one plus the exponential of the negative, entry by entry, is the logistic function. -/
theorem logistic_apply (Z : FVec Ideal S8x128 .f32) (hb hb' : S_.BroadcastsInDim S8x128 ![]) (i : S8x128.Idx) :
    Host.divf (broadcastInDim S8x128 ![] hb (constant (F := Ideal) S_ .f32 0x3F800000#32))
        (addf (broadcastInDim S8x128 ![] hb' (constant (F := Ideal) S_ .f32 0x3F800000#32)) (Host.exp (Host.negf Z))) i
      = Ideal.logistic (Z i) := by
  rw [hostDivf_apply, addf_apply, broadcastInDim_scalar_apply, constant_apply, Ideal.ofBits_one_f32]
  rfl

/-! ## The chain, and the chain at an index -/

/-- The whole chain as one array function of the sums and the two weight matrices. -/
def gateChain (x1 : FVec Ideal S8x128x1 .f32) (w1 : FVec Ideal S16x128 .f32) (w2 : FVec Ideal S128x16 .f32) :
    FVec Ideal S8x128x1 .f32 :=
  shapeCast S8x128x1
    (Host.divf (broadcastInDim S8x128 ![] Gen.bcast_S_S8x128 (constant (F := Ideal) S_ .f32 0x3F800000#32))
      (addf (broadcastInDim S8x128 ![] Gen.bcast_S_S8x128 (constant (F := Ideal) S_ .f32 0x3F800000#32))
        (Host.exp (Host.negf
          (Host.dotGeneral dot_S8x16_S16x128_S8x128_1_0_0_1_n_n none
            (maximumf
              (Host.dotGeneral dot_S8x128_S128x16_S8x16_1_0_0_1_n_n none
                (mulf (shapeCast S8x128 x1 Gen.shapeCasts_S8x128x1_S8x128)
                  (broadcastInDim S8x128 ![] Gen.bcast_S_S8x128 (constant (F := Ideal) S_ .f32 0x38800000#32)))
                (transpose S128x16 [1, 0] w1 Gen.transposes_S16x128_S128x16_1_0))
              (broadcastInDim S8x16 ![] Gen.bcast_S_S8x16 (constant (F := Ideal) S_ .f32 0x00000000#32)))
            (transpose S16x128 [1, 0] w2 Gen.transposes_S128x16_S16x128_1_0))))))
    Gen.shapeCasts_S8x128_S8x128x1

/-- The chain at `(n, c, u)` is the gate of channel `c` of batch element `n`, from the sums read at `(n, c, 0)`. -/
theorem gateChain_apply (x1 : FVec Ideal S8x128x1 .f32) (w1 : FVec Ideal S16x128 .f32) (w2 : FVec Ideal S128x16 .f32)
    (i : S8x128x1.Idx) :
    gateChain x1 w1 w2 i = Cert.SE.gateOf (fun n c => x1 (ix3 n c (0 : Fin 1))) w1 w2 (i 0) (i 1) := by
  obtain ⟨n, c, u, rfl⟩ : ∃ (n : Fin 8) (c : Fin 128) (u : Fin 1), i = ix3 n c u := ⟨i 0, i 1, i 2, eq_ix3 i⟩
  show gateChain x1 w1 w2 (ix3 n c u) = Cert.SE.gateOf (fun n c => x1 (ix3 n c (0 : Fin 1))) w1 w2 n c
  unfold gateChain Cert.SE.gateOf
  rw [shapeCast_ab_ab1_apply, logistic_apply, layer2_apply]
  refine congrArg Ideal.logistic (Finset.sum_congr rfl fun j _ => ?_)
  rw [relu_apply, layer1_apply]
  unfold Cert.SE.hiddenOf
  refine congrArg (fun z => w2 (ix2 c j) * max z 0) (Finset.sum_congr rfl fun c' _ => ?_)
  rw [means_apply]
  rfl

end Cert.ReferenceIdeal.SEHost

end
-- ==== Proof.RefHostStage.lean ====
/-
  The host operations between the two kernel launches of the reference, read off an arbitrary valuation of the
  buffers: they take the channels' sums (an [8, 128, 1] array), the first weights and the second weights, and leave,
  at every `(n, c, u)`, the gate of channel `c` of batch element `n` — the logistic function of the second layer
  applied to the clamped first layer of the means. The stretch is opened into the operations' composed term over the
  three buffers it reads, which is the chain read at an index before; and it writes none of the buffers outside its own
  list of results, so the flattened input array stays as it was.
-/
import proofs.«130839_g2000702401841808_pallasbulk_415_13_alg».proof.Proof.RefHostGate
import proofs.«130839_g2000702401841808_pallasbulk_415_13_alg».proof.Proof.Gen.ReferenceIdeal.Regions

noncomputable section

namespace Cert.ReferenceIdeal.SEHost

open Idealize.ShloMosaic Idealize.ShloMosaic.ValueIdx Cert.ReferenceIdeal

/-- What the stretch leaves in its last result, as the chain over the three buffers it reads. -/
theorem stage_eq_chain (V : Valuation τ sig (Elt Ideal)) :
    (StableHlo.after (Gen.hostOps1 (F := Ideal)) V (Proc.devRef .tc main_v17) : S8x128x1.Idx → EReal)
      = gateChain (V (Proc.devRef .tc main_v1)) (V (Proc.devRef .tc main_arg1)) (V (Proc.devRef .tc main_arg2)) := by
  simp only [Gen.hostOps1]
  after_results
  rfl

/-- The stretch leaves, at `(n, c, u)`, the gate of channel `c` of batch element `n` computed from the sums it found. -/
theorem gate_stage (V : Valuation τ sig (Elt Ideal)) :
    (StableHlo.after (Gen.hostOps1 (F := Ideal)) V (Proc.devRef .tc main_v17) : S8x128x1.Idx → EReal)
      = fun i => Cert.SE.gateOf (fun n c => (V (Proc.devRef .tc main_v1) : S8x128x1.Idx → EReal) (ix3 n c (0 : Fin 1)))
          (V (Proc.devRef .tc main_arg1)) (V (Proc.devRef .tc main_arg2)) (i 0) (i 1) := by
  rw [stage_eq_chain]
  funext i
  exact gateChain_apply _ _ _ i

/-- The stretch does not write the flattened input array. -/
theorem stage_keeps_v0 (V : Valuation τ sig (Elt Ideal)) :
    StableHlo.after (Gen.hostOps1 (F := Ideal)) V (Proc.devRef .tc main_v0) = V (Proc.devRef .tc main_v0) :=
  StableHlo.after_of_writes_sub Gen.hostOps1 V Gen.hostOps1_writes (by decide)

end Cert.ReferenceIdeal.SEHost

end
-- ==== Proof.RefValue.lean ====
/-
  The reference's result as one function of its arguments, at exact values. Through the folds of its run: the slabs are
  the argument flattened; the pooling region leaves the channels' sums of the slabs; the host stage makes of those sums,
  the first weights and the second weights the gate column; the scaling region multiplies every position of the slabs
  by its channel's gate; the last stretch unflattens the positions. No stretch writes an argument.
-/
import proofs.«130839_g2000702401841808_pallasbulk_415_13_alg».proof.Proof.RefRun
import proofs.«130839_g2000702401841808_pallasbulk_415_13_alg».proof.Proof.RefScaleValue
import proofs.«130839_g2000702401841808_pallasbulk_415_13_alg».proof.Proof.RefPoolValue
import proofs.«130839_g2000702401841808_pallasbulk_415_13_alg».proof.Proof.RefHostStage
import proofs.«130839_g2000702401841808_pallasbulk_415_13_alg».proof.Proof.Spec
import Idealize.ShloMosaic.Lib.StableHlo.Run

set_option maxRecDepth 16384

noncomputable section

namespace Cert.ReferenceIdeal.SERun

open Cert.ReferenceIdeal Cert.ReferenceIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

attribute [local irreducible] Cert.SE.rowSum

/-! ## A buffer no stretch writes -/

theorem B1_kept (c : Dev nD) (b : Ref sig .tc) (h0 : b ∉ hostOps0_W) :
    Run.B1 m ρ c (Proc.devRef .tc b) = m ((c : Thread nD τ).loc b) :=
  (StableHlo.after_of_writes_sub hostOps0 _ hostOps0_writes h0).trans rfl

theorem B2_kept (c : Dev nD) (b : Ref sig .tc) (h0 : b ∉ hostOps0_W) (hw0 : ∀ w, Pipeline.arrRef spec0 w ≠ b) :
    Run.B2 m ρ c (Proc.devRef .tc b) = m ((c : Thread nD τ).loc b) :=
  (Run.B2_of_ne m ρ c b hw0).trans (B1_kept m ρ c b h0)

theorem B5_kept (c : Dev nD) (b : Ref sig .tc) (h0 : b ∉ hostOps0_W) (hw0 : ∀ w, Pipeline.arrRef spec0 w ≠ b)
    (h1 : b ∉ hostOps1_W) (hw1 : ∀ w, Pipeline.arrRef spec1 w ≠ b) (h2 : b ∉ hostOps2_W) :
    Run.B5 m ρ c (Proc.devRef .tc b) = m ((c : Thread nD τ).loc b) :=
  (StableHlo.after_of_writes_sub hostOps2 _ hostOps2_writes h2).trans <|
    (Run.B4_of_ne m ρ c b hw1).trans <|
      (StableHlo.after_of_writes_sub hostOps1 _ hostOps1_writes h1).trans (B2_kept m ρ c b h0 hw0)

/-! ## The folds, read -/

/-- The slabs: the first argument with its positions flattened. -/
def slabs (c : Dev nD) : S8x128x16384.Idx → EReal :=
  shapeCast S8x128x16384 (m ((c : Thread nD τ).loc main_arg0)) shapeCasts_S8x128x16x32x32_S8x128x16384

theorem E1_v0 (c : Dev nD) : (Run.E1 m ρ c main_v0 : S8x128x16384.Idx → EReal) = slabs m c := by
  show (StableHlo.after hostOps0 (Run.B0 m ρ c) (Proc.devRef .tc main_v0) : S8x128x16384.Idx → EReal) = _
  simp only [hostOps0]
  after_results
  rfl

/-- The pooling region leaves the slabs in place and their channels' sums in its result. -/
theorem B2_v0 (c : Dev nD) : (Run.B2 m ρ c (Proc.devRef .tc main_v0) : S8x128x16384.Idx → EReal) = slabs m c :=
  (Run.B2_arr m ρ c 0).trans <| ((Pool.dat (Run.E1 m ρ) c).arrAt_in 0 rfl _).trans <| (Pool.A_eq (Run.E1 m ρ) c 0).trans (E1_v0 m ρ c)

theorem B2_v1 (c : Dev nD) : (Run.B2 m ρ c (Proc.devRef .tc main_v1) : S8x128x1.Idx → EReal) = Pool.sums (slabs m c) :=
  (Run.B2_arr m ρ c 1).trans <| (Pool.final (Run.E1 m ρ) c).trans (by unfold Pool.slabs; rw [E1_v0])

/-- The host stage leaves the slabs in place and makes the gate column. -/
theorem E3_v0 (c : Dev nD) : (Run.E3 m ρ c main_v0 : S8x128x16384.Idx → EReal) = slabs m c :=
  (SEHost.stage_keeps_v0 (Run.B2 m ρ c)).trans (B2_v0 m ρ c)

theorem E3_v17 (c : Dev nD) : (Run.E3 m ρ c main_v17 : S8x128x1.Idx → EReal)
    = fun i => Cert.SE.gateOf (Cert.SE.rowSum (slabs m c)) (m ((c : Thread nD τ).loc main_arg1)) (m ((c : Thread nD τ).loc main_arg2)) (i 0) (i 1) := by
  refine (SEHost.gate_stage (Run.B2 m ρ c)).trans ?_
  rw [B2_v1, B2_kept m ρ c main_arg1 (by decide) (by decide), B2_kept m ρ c main_arg2 (by decide) (by decide)]
  rfl

/-- The scaling region leaves every position times its channel's gate. -/
theorem B4_v18 (c : Dev nD) : (Run.B4 m ρ c (Proc.devRef .tc main_v18) : S8x128x16384.Idx → EReal)
    = Cert.SE.scaled (slabs m c) (m ((c : Thread nD τ).loc main_arg1)) (m ((c : Thread nD τ).loc main_arg2)) := by
  refine (Run.B4_arr m ρ c 2).trans <| (Scale.final (Run.E3 m ρ) c).trans ?_
  rw [E3_v0, E3_v17]
  rfl

/-- The last stretch unflattens the positions. -/
theorem B5_v19 (c : Dev nD) : (Run.B5 m ρ c (Proc.devRef .tc main_v19) : S8x128x16x32x32.Idx → EReal)
    = Cert.SE.result shapeCasts_S8x128x16x32x32_S8x128x16384 shapeCasts_S8x128x16384_S8x128x16x32x32
        (m ((c : Thread nD τ).loc main_arg0)) (m ((c : Thread nD τ).loc main_arg1)) (m ((c : Thread nD τ).loc main_arg2)) := by
  have e : (Run.B5 m ρ c (Proc.devRef .tc main_v19) : S8x128x16x32x32.Idx → EReal)
      = shapeCast S8x128x16x32x32 (Run.B4 m ρ c (Proc.devRef .tc main_v18) : S8x128x16384.Idx → EReal) shapeCasts_S8x128x16384_S8x128x16x32x32 := by
    show (StableHlo.after hostOps2 (Run.B4 m ρ c) (Proc.devRef .tc main_v19) : S8x128x16x32x32.Idx → EReal) = _
    simp only [hostOps2]
    after_results
    rfl
  rw [e, B4_v18]
  rfl

/-! ## The run -/

/-- From any memory with zero counters every weakly fair execution of the reference terminates, nothing faulting, with
    the result at `Cert.SE.result` of the arguments and the arguments as launched. -/
theorem ref_run : θ_run (defs (F := Ideal)) (onTc (τ := τ) (main (F := Ideal))) ⟨m, fun _ => 0, ρ⟩ (fun r => ∀ c : Dev nD,
      r.2.mem ((c.tc : Thread nD τ).loc main_v19)
        = Cert.SE.result shapeCasts_S8x128x16x32x32_S8x128x16384 shapeCasts_S8x128x16384_S8x128x16x32x32
            (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c main_v19 (by decide)).trans (B5_v19 m ρ c),
      (h c main_arg0 (by decide)).trans (B5_kept m ρ c main_arg0 (by decide) (by decide) (by decide) (by decide) (by decide)),
      (h c main_arg1 (by decide)).trans (B5_kept m ρ c main_arg1 (by decide) (by decide) (by decide) (by decide) (by decide)),
      (h c main_arg2 (by decide)).trans (B5_kept m ρ c main_arg2 (by decide) (by decide) (by decide) (by decide) (by decide))⟩)
    (Run.run_all (F := Ideal) m ρ)

end Cert.ReferenceIdeal.SERun

end
-- ==== Proof.lean ====
/-
  Squeeze-and-excitation over an [8, 128, 16, 32, 32] volume: a one-pass kernel against a two-pass reference, equal at
  exact values.
  Both programs compute, for a batch element n and a channel c, the sum of the channel's 16384 positions, its mean (the
  sum times 2⁻¹⁴, a power of two both carry as the same word), a hidden layer of 16 units with the first weights clamped
  below at zero, the logistic function of the hidden layer against the second weights, and every position of the
  channel multiplied by that gate (`Cert.SE.result`).
  The kernel does all of it on one batch element's slab per grid point: a sum over the positions' axis, a product of the
  column of means with the transposed first weights contracted over the channels, a row sum against the second
  weights, the logistic function, a broadcast product.
  The reference makes three passes. A first kernel region sums the positions tile by tile, three tiles of 6144 to a
  batch element, the third tile masked beyond the array's end. The host forms the means, the two layers as plain
  matrix products and the logistic function spelt as 1 / (1 + e⁻ᶻ), which is the same function on every extended
  real. A second region multiplies tile by tile.
  The two results agree because addition of extended reals is associative and commutative (the positions' sum taken in
  three blocks or at once; each layer's products taken in either order of their factors), and multiplication is
  commutative; no distributive law is used, so nothing is asked of the inputs' finiteness.
  The frames of the kernel's two readings are their generated frame certificates; the reference's frame is its run
  with the result dropped; the idealization rewrote no operation.
-/
import proofs.«130839_g2000702401841808_pallasbulk_415_13_alg».proof.Defs
import proofs.«130839_g2000702401841808_pallasbulk_415_13_alg».proof.Proof.Gen.Kernel
import proofs.«130839_g2000702401841808_pallasbulk_415_13_alg».proof.Proof.Gen.Kernel.Frame
import proofs.«130839_g2000702401841808_pallasbulk_415_13_alg».proof.Proof.Gen.KernelIdeal
import proofs.«130839_g2000702401841808_pallasbulk_415_13_alg».proof.Proof.Gen.KernelIdeal.Frame
import proofs.«130839_g2000702401841808_pallasbulk_415_13_alg».proof.Proof.Gen.ReferenceIdeal
import proofs.«130839_g2000702401841808_pallasbulk_415_13_alg».proof.Proof.Gen.Pre_finite_inputs
import proofs.«130839_g2000702401841808_pallasbulk_415_13_alg».proof.Proof.KernelValue
import proofs.«130839_g2000702401841808_pallasbulk_415_13_alg».proof.Proof.RefValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference terminates, nothing faulting, with its arguments as launched: its run, the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.SERun.ref_run m ρ)

/-- From memories that agree on the three arguments both programs end with `Cert.SE.result` of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.SEValue.kernel_run m ρ, ?_⟩
  refine (θ_run Cert.ReferenceIdeal.defs _ _).mono (fun _ h c => ⟨(h c).1.trans ?_, (h c).2⟩)
    (Cert.ReferenceIdeal.SERun.ref_run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
